-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S100000 : Shape := ⟨1, ![100000]⟩
abbrev S256x10 : Shape := ⟨2, ![256, 10]⟩
abbrev S10 : Shape := ⟨1, ![10]⟩
abbrev S10x256 : Shape := ⟨2, ![10, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S10x256 : S_.BroadcastsInDim S10x256 (![] : Fin 0 → Fin S10x256.rank)
  reducesTo_S10x256_S_d0_1 : S10x256.ReducesTo [0, 1] S_

variable [Facts]

def fn_part1 {F : FTy → Type} [FloatOps F] (main_v13 : IVec S_ 1) (main_v16 : IVec S10x256 1) : IVec S_ 1 :=
  let main_c_5 : IVec S_ 1 := constantI S_ 1 1#1
  let main_v17 : IVec S_ 1 := (fun x v => Host.reduce IntOp.andi x v reducesTo_S10x256_S_d0_1 h_S_) main_v16 main_c_5
  let main_v18 : IVec S_ 1 := andi main_v13 main_v17
  main_v18

def fn {F : FTy → Type} [FloatOps F] (main_arg0 : FVec F S100000x256 .f32) (main_arg1 : IVec S2x3200000 32) (main_arg2 : IVec S100000 32) (main_arg3 : FVec F S256x10 .f32) (main_arg4 : FVec F S10 .f32) (main_arg5 : FVec F S10x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x10 .f32 := Host.absf main_arg3
  let main_cst_0 : FVec F S_ .f32 := constant S_ .f32 0x7F800000#32
  let main_v5 : FVec F S256x10 .f32 := broadcastInDim S256x10 ![] bcast_S_S256x10 main_cst_0
  let main_v6 : IVec S256x10 1 := cmpf .olt main_v4 main_v5
  let main_c_1 : IVec S_ 1 := constantI S_ 1 1#1
  let main_v7 : IVec S_ 1 := (fun x v => Host.reduce IntOp.andi x v reducesTo_S256x10_S_d0_1 h_S_) main_v6 main_c_1
  let main_v8 : IVec S_ 1 := andi main_v3 main_v7
  let main_v9 : FVec F S10 .f32 := Host.absf main_arg4
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x256 .f32 := Host.absf main_arg5
  let main_cst_4 : FVec F S_ .f32 := constant S_ .f32 0x7F800000#32
  let main_v15 : FVec F S10x256 .f32 := broadcastInDim S10x256 ![] bcast_S_S10x256 main_cst_4
  let main_v16 : IVec S10x256 1 := cmpf .olt main_v14 main_v15
  fn_part1 (F := F) main_v13 main_v16
-- ==== Kernel.lean ====
abbrev S100000x256 : Shape := ⟨2, ![100000, 256]⟩
abbrev S2x3200000 : Shape := ⟨2, ![2, 3200000]⟩
abbrev S100000 : Shape := ⟨1, ![100000]⟩
abbrev S256x10 : Shape := ⟨2, ![256, 10]⟩
abbrev S10 : Shape := ⟨1, ![10]⟩
abbrev S10x256 : Shape := ⟨2, ![10, 256]⟩
abbrev S_ : Shape := ⟨0, ![]⟩
abbrev S256 : Shape := ⟨1, ![256]⟩
abbrev S1x256 : Shape := ⟨2, ![1, 256]⟩
abbrev S100000x10 : Shape := ⟨2, ![100000, 10]⟩
abbrev S5000x256 : Shape := ⟨2, ![5000, 256]⟩
abbrev S5000x10 : Shape := ⟨2, ![5000, 10]⟩
abbrev S1x3200000 : Shape := ⟨2, ![1, 3200000]⟩
abbrev S3200000 : Shape := ⟨1, ![3200000]⟩
abbrev S3200000x1 : Shape := ⟨2, ![3200000, 1]⟩
abbrev S100000x1 : Shape := ⟨2, ![100000, 1]⟩
abbrev S3200000x10 : Shape := ⟨2, ![3200000, 10]⟩
abbrev S1x10 : Shape := ⟨2, ![1, 10]⟩
abbrev S5000 : Shape := ⟨1, ![5000]⟩
abbrev S5000x1 : Shape := ⟨2, ![5000, 1]⟩

abbrev nBuf : Space → Nat
  | .hbm => 46
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S256x10, .f32⟩
  | .hbm, ⟨4, _⟩ => ⟨S10, .f32⟩
  | .hbm, ⟨5, _⟩ => ⟨S10x256, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S100000x10, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x10, .f32⟩
  | .hbm, ⟨26, _⟩ => ⟨S100000x10, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x10, .f32⟩
  | .hbm, ⟨36, _⟩ => ⟨S_, .f32⟩
  | .hbm, ⟨37, _⟩ => ⟨S100000x10, .f32⟩
  | .hbm, ⟨38, _⟩ => ⟨S3200000x1, .i32⟩
  | .hbm, ⟨39, _⟩ => ⟨S100000x10, .f32⟩
  | .hbm, ⟨40, _⟩ => ⟨S100000x1, .f32⟩
  | .hbm, ⟨41, _⟩ => ⟨S100000x10, .f32⟩
  | .hbm, ⟨42, _⟩ => ⟨S100000x10, .f32⟩
  | .hbm, ⟨43, _⟩ => ⟨S100000x10, .f32⟩
  | .hbm, ⟨44, _⟩ => ⟨S1x10, .f32⟩
  | .hbm, ⟨45, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S1x256, .f32⟩
  | .local _ .vmem, ⟨3, _⟩ => ⟨S256x10, .f32⟩
  | .local _ .vmem, ⟨4, _⟩ => ⟨S5000x10, .f32⟩
  | .local _ .vmem, ⟨5, _⟩ => ⟨S5000x10, .f32⟩
  | .local _ .vmem, ⟨6, _⟩ => ⟨S5000x10, .f32⟩
  | .local _ .vmem, ⟨7, _⟩ => ⟨S5000x10, .f32⟩
  | .local _ .vmem, ⟨8, _⟩ => ⟨S1x10, .f32⟩
  | .local _ .vmem, ⟨9, _⟩ => ⟨S10x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S10x256_S256_d0 : S10x256.ReducesTo [0] S256
  h_S_ : 0 < S_.numel
  bcast_S256_S1x256_1 : S256.BroadcastsInDim S1x256 (![1] : Fin 1 → Fin S1x256.rank)
  inb_S5000x256_S5000x256_0_0 : ∀ a, (![0, 0] : Fin 2 → Nat) a + S5000x256.size a ≤ S5000x256.size a
  h_S5000x256 : 0 < S5000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bitsLt_bf16_f32 : FTy.bits .bf16 < FTy.bits .f32
  inb_S256x10_S256x10_0_0 : ∀ a, (![0, 0] : Fin 2 → Nat) a + S256x10.size a ≤ S256x10.size a
  h_S256x10 : 0 < S256x10.numel
  inb_S5000x10_S5000x10_0_0 : ∀ a, (![0, 0] : Fin 2 → Nat) a + S5000x10.size a ≤ S5000x10.size a
  h_S5000x10 : 0 < S5000x10.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S10x256_S10x256_0_0 : ∀ a, (![0, 0] : Fin 2 → Nat) a + S10x256.size a ≤ S10x256.size a
  h_S10x256 : 0 < S10x256.numel
  dot_S5000x256_S256x10_S5000x10_1_0_0_1_n_n_wf : DotDims.WF S5000x256 S256x10 S5000x10 [1] [0] [0] [1] [] []
  scatter_S100000_S3200000x1_S3200000_n_0_0_1_wf : ScatterDims.WF S100000 S3200000x1 S3200000 [] [0] [0] 1
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S5000x10_S10x256_S5000x256_1_0_0_1_n_n_wf : DotDims.WF S5000x10 S10x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x10.size a ≤ S256x10.size a
  hwx0_2 : ∀ i : grid0.Coords, EltTy.bits .f32 = 32 ∨ (Rect.block (s := S256x10) S256x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S100000x10.size a
  hwx0_3 : ∀ i : grid0.Coords, EltTy.bits .f32 = 32 ∨ (Rect.block (s := S100000x10) S5000x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S100000x10.size a
  hwx1_0 : ∀ i : grid1.Coords, EltTy.bits .f32 = 32 ∨ (Rect.block (s := S100000x10) S5000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x10.size a ≤ S1x10.size a
  hwx1_1 : ∀ i : grid1.Coords, EltTy.bits .f32 = 32 ∨ (Rect.block (s := S1x10) S1x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x256.size a ≤ S10x256.size a
  hwx1_2 : ∀ i : grid1.Coords, EltTy.bits .f32 = 32 ∨ (Rect.block (s := S10x256) S10x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S100000x256.size a
  hwx1_4 : ∀ i : grid1.Coords, EltTy.bits .f32 = 32 ∨ (Rect.block (s := S100000x256) S5000x256.size (cc1_transform_4 i) (hinb1_4 i)).WholeWords (EltTy.packing .f32)

variable [Facts₀]

def dot_S5000x256_S256x10_S5000x10_1_0_0_1_n_n : DotDims S5000x256 S256x10 S5000x10 where
  lhsContracting := [1]
  rhsContracting := [0]
  lhsNonContracting := [0]
  rhsNonContracting := [1]
  lhsBatch := []
  rhsBatch := []
  wf := dot_S5000x256_S256x10_S5000x10_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S5000x10_S10x256_S5000x256_1_0_0_1_n_n : DotDims S5000x10 S10x256 S5000x256 where
  lhsContracting := [1]
  rhsContracting := [0]
  lhsNonContracting := [0]
  rhsNonContracting := [1]
  lhsBatch := []
  rhsBatch := []
  wf := dot_S5000x10_S10x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S10x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S5000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S100000 : Shape := ⟨1, ![100000]⟩
abbrev S256x10 : Shape := ⟨2, ![256, 10]⟩
abbrev S10 : Shape := ⟨1, ![10]⟩
abbrev S10x256 : Shape := ⟨2, ![10, 256]⟩
abbrev S_ : Shape := ⟨0, ![]⟩
abbrev S256 : Shape := ⟨1, ![256]⟩
abbrev S1x256 : Shape := ⟨2, ![1, 256]⟩
abbrev S100000x10 : Shape := ⟨2, ![100000, 10]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S256x10, .f32⟩
  | .hbm, ⟨4, _⟩ => ⟨S10, .f32⟩
  | .hbm, ⟨5, _⟩ => ⟨S10x256, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S100000x256, .f32⟩
  | .hbm, ⟨10, _⟩ => ⟨S100000x256, .f32⟩
  | .hbm, ⟨11, _⟩ => ⟨S100000x10, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x10, .f32⟩
  | .hbm, ⟨61, _⟩ => ⟨S3300000x1, .f32⟩
  | .hbm, ⟨62, _⟩ => ⟨S3300000x10, .f32⟩
  | .hbm, ⟨63, _⟩ => ⟨S3300000x10, .f32⟩
  | .hbm, ⟨64, _⟩ => ⟨S_, .f32⟩
  | .hbm, ⟨65, _⟩ => ⟨S100000x10, .f32⟩
  | .hbm, ⟨66, _⟩ => ⟨S3300000x1, .i32⟩
  | .hbm, ⟨67, _⟩ => ⟨S100000x10, .f32⟩
  | .hbm, ⟨68, _⟩ => ⟨S1x10, .f32⟩
  | .hbm, ⟨69, _⟩ => ⟨S100000x10, .f32⟩
  | .hbm, ⟨70, _⟩ => ⟨S100000x10, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x10, .f32⟩
  | .hbm, ⟨78, _⟩ => ⟨S100000x10, .f32⟩
  | .hbm, ⟨79, _⟩ => ⟨S100000x10, .f32⟩
  | .hbm, ⟨80, _⟩ => ⟨S_, .f32⟩
  | .hbm, ⟨81, _⟩ => ⟨S100000, .f32⟩
  | .hbm, ⟨82, _⟩ => ⟨S100000x1, .f32⟩
  | .hbm, ⟨83, _⟩ => ⟨S100000x10, .f32⟩
  | .hbm, ⟨84, _⟩ => ⟨S100000x10, .f32⟩
  | .hbm, ⟨85, _⟩ => ⟨S100000x256, .f32⟩
  | .hbm, ⟨86, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  reducesTo_S10x256_S256_d0 : S10x256.ReducesTo [0] S256
  h_S_ : 0 < S_.numel
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x256_S256x10_S100000x10_1_0_0_1_n_n_wf : DotDims.WF S100000x256 S256x10 S100000x10 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S100000x10_S10x256_S100000x256_1_0_0_1_n_n_wf : DotDims.WF S100000x10 S10x256 S100000x256 [1] [0] [0] [1] [] []

variable [Facts₀]

def dot_S100000x256_S256x10_S100000x10_1_0_0_1_n_n : DotDims S100000x256 S256x10 S100000x10 where
  lhsContracting := [1]
  rhsContracting := [0]
  lhsNonContracting := [0]
  rhsNonContracting := [1]
  lhsBatch := []
  rhsBatch := []
  wf := dot_S100000x256_S256x10_S100000x10_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S100000x10_S10x256_S100000x256_1_0_0_1_n_n : DotDims S100000x10 S10x256 S100000x256 where
  lhsContracting := [1]
  rhsContracting := [0]
  lhsNonContracting := [0]
  rhsNonContracting := [1]
  lhsBatch := []
  rhsBatch := []
  wf := dot_S100000x10_S10x256_S100000x256_1_0_0_1_n_n_wf

class Facts : Prop extends Facts₀ where

variable [Facts]
-- ==== Proof.KRun.lean ====
import proofs.«168597_j74852690035344_2_alg».proof.Proof.Gen.KernelIdeal.Frame

/-!
# The idealized kernel's run, with its result named

The program is two pipelined regions among stretches of host operations. Every weakly fair execution terminates, and
in the final state the result buffer holds what the second region's write-backs leave in it — the last boundary's
contents at that buffer — while the six argument arrays are as launched.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The result buffer's final contents are what the second region's write-backs leave in its output array. -/
theorem result_eq (c : Dev nD) :
    W4 m ρ c (Proc.devRef .tc main_v32) = (dat1 (V3 m ρ) c).arrAt 4 cfg1.N :=
  W4_arr m ρ c 4

end Cert.KernelIdeal.Whole

end
-- ==== Proof.Spec.lean ====
import Idealize.ShloMosaic.Lib.ValueIdx
import Idealize.ShloMosaic.PureOps.Ideal.Laws

/-!
# The layer's stages as functions of indices

A graph layer on `R` rows of 256 features and 10 clusters, over the extended reals:

* `lin`: the rows shifted by a fixed vector `cs` of 256 entries and multiplied by a 256 × 10 weight matrix;
* `soft`: the softmax of a row of 10 logits — the row's largest entry is the maximum folded from −∞ and compared once
  more with −∞ (`rowTop`), the exponentials of the entries less that maximum (`rowExp`) are divided by their sum;
* `pool`: the input plus the product of the softmax of (logits + bias) with the 10 × 256 cluster embedding.

These are the common form both programs' results are brought to, index by index.
-/

open scoped BigOperators

noncomputable section

namespace Cert.Spec

open Idealize.ShloMosaic Idealize.ShloMosaic.ValueIdx

/-- A row's largest entry: the maximum folded over the row's 10 entries from −∞, compared once more with −∞. -/
def rowTop (l : Fin 10 → EReal) : EReal :=
  max (Ideal.ofBits .f32 0xFF800000#32)
    ((Finset.univ : Finset (Fin 10)).fold max (Ideal.ofBits .f32 0xFF800000#32) l)

/-- The exponential of an entry less the row's largest entry. -/
def rowExp (l : Fin 10 → EReal) (k : Fin 10) : EReal := Ideal.exp (l k - rowTop l)

/-- The softmax of a row: each shifted exponential over their sum. -/
def soft (l : Fin 10 → EReal) (k : Fin 10) : EReal := Ideal.div (rowExp l k) (∑ k' : Fin 10, rowExp l k')

/-- The pooled output at `(i, j)`: the input there plus the softmax of row `i` of (logits + bias) against column `j`
    of the cluster embedding. -/
def pool {R : Nat} (L : (⟨2, ![R, 10]⟩ : Shape).Idx → EReal) (b : Fin 10 → EReal)
    (ce : (⟨2, ![10, 256]⟩ : Shape).Idx → EReal) (x : (⟨2, ![R, 256]⟩ : Shape).Idx → EReal)
    (i : Fin R) (j : Fin 256) : EReal :=
  x (ix2 i j) + ∑ k : Fin 10, soft (fun k' => L (ix2 i k') + b k') k * ce (ix2 k j)

/-- The linear stage at `(i, c)`: row `i` shifted by `cs`, against column `c` of the weights. -/
def lin {R : Nat} (x : (⟨2, ![R, 256]⟩ : Shape).Idx → EReal) (cs : Fin 256 → EReal)
    (W : (⟨2, ![256, 10]⟩ : Shape).Idx → EReal) (i : Fin R) (c : Fin 10) : EReal :=
  ∑ k : Fin 256, (x (ix2 i k) + cs k) * W (ix2 k c)

/-- The pooled output depends on the logits only through their values: equal logits, equal outputs. -/
theorem pool_congr {R : Nat} {L L' : (⟨2, ![R, 10]⟩ : Shape).Idx → EReal} (b : Fin 10 → EReal)
    (ce : (⟨2, ![10, 256]⟩ : Shape).Idx → EReal) (x : (⟨2, ![R, 256]⟩ : Shape).Idx → EReal) (i : Fin R) (j : Fin 256)
    (h : ∀ k : Fin 10, L (ix2 i k) = L' (ix2 i k)) : pool L b ce x i j = pool L' b ce x i j := by
  unfold pool
  have e : (fun k' => L (ix2 i k') + b k') = fun k' => L' (ix2 i k') + b k' := funext fun k' => by rw [h k']
  rw [e]

end Cert.Spec

end
-- ==== Proof.Region0.lean ====
import proofs.«168597_j74852690035344_2_alg».proof.Proof.Gen.KernelIdeal.Frame
import proofs.«168597_j74852690035344_2_alg».proof.Proof.Spec
import Idealize.ShloMosaic.Lib.Pipeline.Value
import Idealize.ShloMosaic.Lib.ValueIdx

/-!
# The linear region: from its blocks to the whole array of transformed rows

The first region walks the 100000 rows in 20 blocks of 5000. At block `t` it reads rows `5000·t … 5000·t + 4999` of the
input, the whole shift row and the whole weight matrix, and writes the same rows of the result. Row `p` of a block is
row `5000·t + p` of the arrays (`row`), each block read is the array read at that row, so what block `t` writes back is
block `t` of ONE function of the arrays as the region finds them (`G`: `Spec.lin`), and the 20 blocks cover every
row: the result array ends holding `G`.

The body's arithmetic enters through `hpay`: its stored value at `(p, c)` is `Spec.lin` of the blocks it loaded.
-/

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- What the body stores at `(p, c)`, as a fact about its pure term. -/
def Pay : Prop :=
  ∀ (v0 : Vec Ideal S5000x256 .f32) (v1 : Vec Ideal S1x256 .f32) (v6 : Vec Ideal S256x10 .f32)
    (p : Fin 5000) (c : Fin 10),
    k0_pay1 (F := Ideal) v0 v1 v6 (ix2 p c)
      = Cert.Spec.lin (R := 5000) v0 (fun k => v1 (ix2 (0 : Fin 1) k)) v6 p c

variable (V : (c : Dev nD) → (b : Ref sig .tc) → Buf (Elt Ideal) ((c : Thread nD τ).loc b))

theorem hz : (![0, 0] : Fin 2 → Nat) = fun _ => 0 := funext fun a => by fin_cases a <;> rfl

/-- The transformed rows as one function of the three arrays the region reads. -/
def G (x : S100000x256.Idx → EReal) (cs : S1x256.Idx → EReal) (W : S256x10.Idx → EReal) : S100000x10.Idx → EReal :=
  fun i => Cert.Spec.lin (R := 100000) x (fun k => cs (ix2 (0 : Fin 1) k)) W (i 0) (i 1)

/-- The printed index maps over the grid: the row-blocked windows move together, the whole-array windows stay. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every block of rows is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- Row `p` of block `t` is this row of the arrays. -/
def row (t : Fin cfg0.N) (p : Fin 5000) : Fin 100000 :=
  ⟨win0_3.index t (0 : Fin 2) * 5000 + p.val, by
    have h := (idx_facts t).2.2.2.2.2.2.1
    have hp := p.isLt
    omega⟩

theorem emb3 (t : Fin cfg0.N) (p : Fin 5000) (q : Fin 10) :
    ((cfg0.win 3).blk t).view.emb (ix2 p q) = ix2 (row t p) q := by
  obtain ⟨e0, e1, e2, e3, e4, e5, e6, e7⟩ := idx_facts t
  funext a; apply Fin.ext
  match a with
  | ⟨0, _⟩ => show win0_3.index t (0 : Fin 2) * 5000 + 1 * p.val = win0_3.index t (0 : Fin 2) * 5000 + p.val; omega
  | ⟨1, _⟩ => show win0_3.index t (1 : Fin 2) * 10 + 1 * q.val = q.val; omega

theorem read0 (c : Dev nD) (t : Fin cfg0.N) (p : Fin 5000) (k : Fin 256) :
    iblk0 V c 0 t (ix2 p k) = V c main_arg0 (ix2 (row t p) k) := by
  obtain ⟨e0, e1, e2, e3, e4, e5, e6, e7⟩ := idx_facts t
  show V c main_arg0 (((cfg0.win 0).blk t).view.emb (ix2 p k)) = V c main_arg0 (ix2 (row t p) k)
  refine congrArg (V c main_arg0) ?_
  funext a; apply Fin.ext
  match a with
  | ⟨0, _⟩ => show win0_0.index t (0 : Fin 2) * 5000 + 1 * p.val = win0_3.index t (0 : Fin 2) * 5000 + p.val; omega
  | ⟨1, _⟩ => show win0_0.index t (1 : Fin 2) * 256 + 1 * k.val = k.val; omega

theorem read1 (c : Dev nD) (t : Fin cfg0.N) (k : Fin 256) :
    iblk0 V c 1 t (ix2 (0 : Fin 1) k) = V c main_v1 (ix2 (0 : Fin 1) k) := by
  obtain ⟨e0, e1, e2, e3, e4, e5, e6, e7⟩ := idx_facts t
  show V c main_v1 (((cfg0.win 1).blk t).view.emb (ix2 (0 : Fin 1) k)) = V c main_v1 (ix2 (0 : Fin 1) k)
  refine congrArg (V c main_v1) ?_
  funext a; apply Fin.ext
  match a with
  | ⟨0, _⟩ => show win0_1.index t (0 : Fin 2) * 1 + 1 * 0 = 0; omega
  | ⟨1, _⟩ => show win0_1.index t (1 : Fin 2) * 256 + 1 * k.val = k.val; omega

theorem read2 (c : Dev nD) (t : Fin cfg0.N) (k : Fin 256) (q : Fin 10) :
    iblk0 V c 2 t (ix2 k q) = V c main_arg3 (ix2 k q) := by
  obtain ⟨e0, e1, e2, e3, e4, e5, e6, e7⟩ := idx_facts t
  show V c main_arg3 (((cfg0.win 2).blk t).view.emb (ix2 k q)) = V c main_arg3 (ix2 k q)
  refine congrArg (V c main_arg3) ?_
  funext a; apply Fin.ext
  match a with
  | ⟨0, _⟩ => show win0_2.index t (0 : Fin 2) * 256 + 1 * k.val = k.val; omega
  | ⟨1, _⟩ => show win0_2.index t (1 : Fin 2) * 10 + 1 * q.val = q.val; omega

/-- What point `t` writes back is block `t` of `G` of the arrays as the region finds them. -/
theorem flushed_eq (hpay : Pay) (c : Dev nD) (t : Fin cfg0.N) :
    (dat0 V c).flushed 3 t = ((cfg0.win 3).blk t).view.read (Elt Ideal)
      (G (V c main_arg0) (V c main_v1) (V c main_arg3)) := by
  show (cfg0.win 3).cut (grid0.coords t) ((dat0 V c).after 3 t) = _
  rw [after0_3]
  unfold out0_3
  rw [View.canon_unit_zero hz]
  simp only [View.ld_unit_zero (S := S5000x256) hz, View.ld_unit_zero (S := S1x256) hz,
    View.ld_unit_zero (S := S256x10) hz]
  funext j
  obtain ⟨p, q, rfl⟩ : ∃ (p : Fin 5000) (q : Fin 10), j = ix2 p q := ⟨j 0, j 1, eq_ix2 j⟩
  show k0_pay1 (F := Ideal) (iblk0 V c 0 t) (iblk0 V c 1 t) (iblk0 V c 2 t) (ix2 p q)
    = G (V c main_arg0) (V c main_v1) (V c main_arg3) (((cfg0.win 3).blk t).view.emb (ix2 p q))
  refine (hpay (iblk0 V c 0 t) (iblk0 V c 1 t) (iblk0 V c 2 t) p q).trans ?_
  rw [emb3]
  show Cert.Spec.lin (R := 5000) (iblk0 V c 0 t) (fun k => iblk0 V c 1 t (ix2 (0 : Fin 1) k)) (iblk0 V c 2 t) p q
    = Cert.Spec.lin (R := 100000) (V c main_arg0) (fun k => V c main_v1 (ix2 (0 : Fin 1) k)) (V c main_arg3) (row t p) q
  unfold Cert.Spec.lin
  simp only [read0, read1, read2]

/-- An index of the array is in point `t`'s block iff each coordinate is in the block's range on its axis. -/
theorem mem_blk (t : Fin cfg0.N) (i : S100000x10.Idx) :
    i ∈ ((cfg0.win 3).blk t).view.set ↔ ∀ a : Fin 2, win0_3.index t a * S5000x10.size a ≤ (i a).val
      ∧ (i a).val < win0_3.index t a * S5000x10.size a + S5000x10.size a := by
  show i ∈ ((View.whole main_v2).slice (win0_3.rect t)).set ↔ _
  rw [View.set_slice_whole, Rect.mem_set_unit]
  exact Iff.rfl

/-- Every index of the result array is in some point's block: the point of its row's block. -/
theorem cover (i : S100000x10.Idx) :
    ∃ t : Fin cfg0.N, (cfg0.win 3).flush t = true ∧ i ∈ ((cfg0.win 3).blk t).view.set := by
  have hi0 : (i 0).val < 100000 := (i 0).isLt
  have hi1 : (i 1).val < 10 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 10 ≤ (i 1).val ∧ (i 1).val < win0_3.index t (1 : Fin 2) * 10 + 10; omega

/-- The result array after the region: `G` of the arrays as the region finds them. -/
theorem final (hpay : Pay) (c : Dev nD) :
    (dat0 V c).arrAt 3 cfg0.N = G (V c main_arg0) (V c main_v1) (V c main_arg3) :=
  (dat0 V c).arrAt_eq_of_cover 3 _ (fun t _ => flushed_eq V hpay c t) cover

end Cert.KernelIdeal.Region0

end
-- ==== Proof.Region1.lean ====
import proofs.«168597_j74852690035344_2_alg».proof.Proof.Gen.KernelIdeal.Frame
import proofs.«168597_j74852690035344_2_alg».proof.Proof.Spec
import Idealize.ShloMosaic.Lib.Pipeline.Value
import Idealize.ShloMosaic.Lib.ValueIdx

/-!
# The pooling region: from its blocks to the whole output array

The second region walks the 100000 rows in 20 blocks of 5000. At block `t` it reads rows `5000·t … 5000·t + 4999` of the
logits and of the input, the whole bias row and the whole cluster embedding, and writes the same rows of the output.
Row `p` of a block is row `5000·t + p` of the arrays (`row`), each block read is the array read at that row (`read0` …
`read3`), so what block `t` writes back is block `t` of ONE function of the arrays as the region finds them (`G`:
the pooled output of `Spec.pool`), and the 20 blocks cover every row: the output array ends holding `G`.

The body's arithmetic enters through `hpay`: its stored value at `(p, q)` is `Spec.pool` of the blocks it loaded.
-/

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- What the body stores at `(p, q)`, as a fact about its pure term. -/
def Pay : Prop :=
  ∀ (v0 : Vec Ideal S5000x10 .f32) (v2 : Vec Ideal S1x10 .f32) (v18 : Vec Ideal S10x256 .f32)
    (v21 : Vec Ideal S5000x256 .f32) (p : Fin 5000) (q : Fin 256),
    k1_pay1 (F := Ideal) v0 v2 v18 v21 (ix2 p q)
      = Cert.Spec.pool (R := 5000) v0 (fun k => v2 (ix2 (0 : Fin 1) k)) v18 v21 p q

variable (V : (c : Dev nD) → (b : Ref sig .tc) → Buf (Elt Ideal) ((c : Thread nD τ).loc b))

theorem hz : (![0, 0] : Fin 2 → Nat) = fun _ => 0 := funext fun a => by fin_cases a <;> rfl

/-- The pooled output as one function of the four arrays the region reads. -/
def G (L : S100000x10.Idx → EReal) (b2 : S1x10.Idx → EReal) (ce : S10x256.Idx → EReal)
    (x : S100000x256.Idx → EReal) : S100000x256.Idx → EReal :=
  fun i => Cert.Spec.pool (R := 100000) L (fun k => b2 (ix2 (0 : Fin 1) k)) ce x (i 0) (i 1)

/-- The printed index maps over the grid: the row-blocked windows move together, the whole-array windows stay. -/
theorem idx_facts : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = win1_4.index t (0 : Fin 2) ∧ win1_3.index t (1 : Fin 2) = 0
    ∧ win1_4.index t (0 : Fin 2) ≤ 19 ∧ win1_4.index t (1 : Fin 2) = 0 :=
  (by decide +kernel : ∀ t : Fin grid1.N, _)

/-- Every block of rows is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- Row `p` of block `t` is this row of the arrays. -/
def row (t : Fin cfg1.N) (p : Fin 5000) : Fin 100000 :=
  ⟨win1_4.index t (0 : Fin 2) * 5000 + p.val, by
    have h := (idx_facts t).2.2.2.2.2.2.2.2.1
    have hp := p.isLt
    omega⟩

theorem emb4 (t : Fin cfg1.N) (p : Fin 5000) (q : Fin 256) :
    ((cfg1.win 4).blk t).view.emb (ix2 p q) = ix2 (row t p) q := by
  obtain ⟨e0, e1, e2, e3, e4, e5, e6, e7, e8, e9⟩ := idx_facts t
  funext a; apply Fin.ext
  match a with
  | ⟨0, _⟩ => show win1_4.index t (0 : Fin 2) * 5000 + 1 * p.val = win1_4.index t (0 : Fin 2) * 5000 + p.val; omega
  | ⟨1, _⟩ => show win1_4.index t (1 : Fin 2) * 256 + 1 * q.val = q.val; omega

theorem read0 (c : Dev nD) (t : Fin cfg1.N) (p : Fin 5000) (k : Fin 10) :
    iblk1 V c 0 t (ix2 p k) = V c main_v30 (ix2 (row t p) k) := by
  obtain ⟨e0, e1, e2, e3, e4, e5, e6, e7, e8, e9⟩ := idx_facts t
  show V c main_v30 (((cfg1.win 0).blk t).view.emb (ix2 p k)) = V c main_v30 (ix2 (row t p) k)
  refine congrArg (V c main_v30) ?_
  funext a; apply Fin.ext
  match a with
  | ⟨0, _⟩ => show win1_0.index t (0 : Fin 2) * 5000 + 1 * p.val = win1_4.index t (0 : Fin 2) * 5000 + p.val; omega
  | ⟨1, _⟩ => show win1_0.index t (1 : Fin 2) * 10 + 1 * k.val = k.val; omega

theorem read1 (c : Dev nD) (t : Fin cfg1.N) (k : Fin 10) :
    iblk1 V c 1 t (ix2 (0 : Fin 1) k) = V c main_v31 (ix2 (0 : Fin 1) k) := by
  obtain ⟨e0, e1, e2, e3, e4, e5, e6, e7, e8, e9⟩ := idx_facts t
  show V c main_v31 (((cfg1.win 1).blk t).view.emb (ix2 (0 : Fin 1) k)) = V c main_v31 (ix2 (0 : Fin 1) k)
  refine congrArg (V c main_v31) ?_
  funext a; apply Fin.ext
  match a with
  | ⟨0, _⟩ => show win1_1.index t (0 : Fin 2) * 1 + 1 * 0 = 0; omega
  | ⟨1, _⟩ => show win1_1.index t (1 : Fin 2) * 10 + 1 * k.val = k.val; omega

theorem read2 (c : Dev nD) (t : Fin cfg1.N) (k : Fin 10) (q : Fin 256) :
    iblk1 V c 2 t (ix2 k q) = V c main_arg5 (ix2 k q) := by
  obtain ⟨e0, e1, e2, e3, e4, e5, e6, e7, e8, e9⟩ := idx_facts t
  show V c main_arg5 (((cfg1.win 2).blk t).view.emb (ix2 k q)) = V c main_arg5 (ix2 k q)
  refine congrArg (V c main_arg5) ?_
  funext a; apply Fin.ext
  match a with
  | ⟨0, _⟩ => show win1_2.index t (0 : Fin 2) * 10 + 1 * k.val = k.val; omega
  | ⟨1, _⟩ => show win1_2.index t (1 : Fin 2) * 256 + 1 * q.val = q.val; omega

theorem read3 (c : Dev nD) (t : Fin cfg1.N) (p : Fin 5000) (q : Fin 256) :
    iblk1 V c 3 t (ix2 p q) = V c main_arg0 (ix2 (row t p) q) := by
  obtain ⟨e0, e1, e2, e3, e4, e5, e6, e7, e8, e9⟩ := idx_facts t
  show V c main_arg0 (((cfg1.win 3).blk t).view.emb (ix2 p q)) = V c main_arg0 (ix2 (row t p) q)
  refine congrArg (V c main_arg0) ?_
  funext a; apply Fin.ext
  match a with
  | ⟨0, _⟩ => show win1_3.index t (0 : Fin 2) * 5000 + 1 * p.val = win1_4.index t (0 : Fin 2) * 5000 + p.val; omega
  | ⟨1, _⟩ => show win1_3.index t (1 : Fin 2) * 256 + 1 * q.val = q.val; omega

/-- What point `t` writes back is block `t` of `G` of the arrays as the region finds them. -/
theorem flushed_eq (hpay : Pay) (c : Dev nD) (t : Fin cfg1.N) :
    (dat1 V c).flushed 4 t = ((cfg1.win 4).blk t).view.read (Elt Ideal)
      (G (V c main_v30) (V c main_v31) (V c main_arg5) (V c main_arg0)) := by
  show (cfg1.win 4).cut (grid1.coords t) ((dat1 V c).after 4 t) = _
  rw [after1_4]
  unfold out1_4
  rw [View.canon_unit_zero hz]
  simp only [View.ld_unit_zero (S := S5000x10) hz, View.ld_unit_zero (S := S1x10) hz,
    View.ld_unit_zero (S := S10x256) hz, View.ld_unit_zero (S := S5000x256) hz]
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (iblk1 V c 2 t) (iblk1 V c 3 t) (ix2 p q)
    = G (V c main_v30) (V c main_v31) (V c main_arg5) (V c main_arg0) (((cfg1.win 4).blk t).view.emb (ix2 p q))
  refine (hpay (iblk1 V c 0 t) (iblk1 V c 1 t) (iblk1 V c 2 t) (iblk1 V c 3 t) p q).trans ?_
  rw [emb4]
  show Cert.Spec.pool (R := 5000) (iblk1 V c 0 t) (fun k => iblk1 V c 1 t (ix2 (0 : Fin 1) k)) (iblk1 V c 2 t) (iblk1 V c 3 t) p q
    = Cert.Spec.pool (R := 100000) (V c main_v30) (fun k => V c main_v31 (ix2 (0 : Fin 1) k)) (V c main_arg5) (V c main_arg0) (row t p) q
  unfold Cert.Spec.pool
  simp only [read0, read1, read2, read3]

/-- An index of the array is in point `t`'s block iff each coordinate is in the block's range on its axis. -/
theorem mem_blk (t : Fin cfg1.N) (i : S100000x256.Idx) :
    i ∈ ((cfg1.win 4).blk t).view.set ↔ ∀ a : Fin 2, win1_4.index t a * S5000x256.size a ≤ (i a).val
      ∧ (i a).val < win1_4.index t a * S5000x256.size a + S5000x256.size a := by
  show i ∈ ((View.whole main_v32).slice (win1_4.rect t)).set ↔ _
  rw [View.set_slice_whole, Rect.mem_set_unit]
  exact Iff.rfl

/-- Every index of the output array is in some point's block: the point of its row's block. -/
theorem cover (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- The output array after the region: `G` of the arrays as the region finds them. -/
theorem final (hpay : Pay) (c : Dev nD) :
    (dat1 V c).arrAt 4 cfg1.N = G (V c main_v30) (V c main_v31) (V c main_arg5) (V c main_arg0) :=
  (dat1 V c).arrAt_eq_of_cover 4 _ (fun t _ => flushed_eq V hpay c t) cover

end Cert.KernelIdeal.Region1

end
-- ==== Proof.KHost.lean ====
import proofs.«168597_j74852690035344_2_alg».proof.Proof.Gen.KernelIdeal.Frame
import Idealize.ShloMosaic.Lib.StableHlo.Run
import Idealize.ShloMosaic.PureOps.Ideal

/-!
# What the kernel's two regions find in their input arrays

Before the first region the host sums the cluster embedding over its rows and stands the sums up as a `[1, 256]` row.
Between the regions it passes the transformed rows `hw` through the edge list: the destination words are counted into
degrees (`deg` = count + 1, `dinv` = its reciprocal square root), the rows are scaled by `dinv` (`hs`), gathered at the
source words (negative words wrapped by the row count, `srcWrap`), added into their destination rows (`agg`), and the sum
with the row's own scaled entry is scaled by `dinv` again (`logits`). The bias vector is re-laid as a `[1, 10]` row.

Each array a region reads is such a term of the launch memory and, for the second region, of the first region's
result array; the argument arrays come through every stretch unchanged.
-/

set_option maxRecDepth 16384

noncomputable section

namespace Cert.KernelIdeal.HostSide

open Cert.KernelIdeal Cert.KernelIdeal.Gen
open Idealize.ShloMosaic Idealize.ShloMosaic.TcCoe Idealize.ShloMosaic.Tactic Idealize.ShloMosaic.StableHlo
open Idealize.SL Idealize.SL.Sem

/-! ## The stretch between the regions as functions of the transformed rows and the edge words -/

/-- The source words: row 0 of the edge list. -/
def srcW (ei : IVec S2x3200000 32) : IVec S3200000 32 :=
  shapeCast S3200000 (extractStridedSlice S1x3200000 ![0, 0] ei slices_S2x3200000_S1x3200000_0_0) shapeCasts_S1x3200000_S3200000
/-- The destination words: row 1 of the edge list. -/
def dstW (ei : IVec S2x3200000 32) : IVec S3200000 32 :=
  shapeCast S3200000 (extractStridedSlice S1x3200000 ![1, 0] ei slices_S2x3200000_S1x3200000_1_0) shapeCasts_S1x3200000_S3200000
/-- A node's degree: the number of edges into it, counted by an accumulating scatter of ones, plus one. -/
def deg (ei : IVec S2x3200000 32) : FVec Ideal S100000 .f32 :=
  addf (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 (dstW ei))
      (broadcastInDim S3200000 ![] bcast_S_S3200000 (constant (F := Ideal) S_ .f32 0x3F800000#32)))
    (broadcastInDim S100000 ![] bcast_S_S100000 (constant (F := Ideal) S_ .f32 0x3F800000#32))
/-- The reciprocal square root of the degree. -/
def dinv (ei : IVec S2x3200000 32) : FVec Ideal S100000 .f32 := Host.rsqrt (F := Ideal) (deg ei)
/-- That factor stood up as a column and repeated along the 10 clusters. -/
def dcol (ei : IVec S2x3200000 32) : FVec Ideal S100000x10 .f32 :=
  broadcastInDim S100000x10 ![0, 1] bcast_S100000x1_S100000x10_0_1
    (broadcastInDim S100000x1 ![0] bcast_S100000_S100000x1_0 (dinv ei))
/-- The transformed rows, each scaled by its node's factor. -/
def hs (hw : FVec Ideal S100000x10 .f32) (ei : IVec S2x3200000 32) : FVec Ideal S100000x10 .f32 := mulf hw (dcol ei)
/-- The source words with a negative word moved up by the row count. -/
def srcWrap (ei : IVec S2x3200000 32) : IVec S3200000 32 :=
  select (cmpi .slt (srcW ei) (broadcastInDim S3200000 ![] bcast_S_S3200000 (constantI S_ 32 0#32)))
    (addi (srcW ei) (broadcastInDim S3200000 ![] bcast_S_S3200000 (constantI S_ 32 100000#32))) (srcW ei)
/-- Per edge, the scaled row of its source node. -/
def gathered (hw : FVec Ideal S100000x10 .f32) (ei : IVec S2x3200000 32) : FVec Ideal S3200000x10 .f32 :=
  Host.gather gather_S100000x10_S3200000x1_S3200000x10_1_0_n_n_0_1_110 (hs hw ei)
    (broadcastInDim S3200000x1 ![0] bcast_S3200000_S3200000x1_0 (srcWrap ei))
/-- Per node, the sum of the gathered rows of the edges into it. -/
def agg (hw : FVec Ideal S100000x10 .f32) (ei : IVec S2x3200000 32) : FVec Ideal S100000x10 .f32 :=
  Host.scatterAdd (F := Ideal) scatter_S100000x10_S3200000x1_S3200000x10_1_0_0_1
    (broadcastInDim S100000x10 ![] bcast_S_S100000x10 (constant (F := Ideal) S_ .f32 0x00000000#32))
    (broadcastInDim S3200000x1 ![0] bcast_S3200000_S3200000x1_0 (dstW ei)) (gathered hw ei)
/-- The logits before the bias: the node's factor times (the edge sum plus the node's own scaled row). -/
def logits (hw : FVec Ideal S100000x10 .f32) (ei : IVec S2x3200000 32) : FVec Ideal S100000x10 .f32 :=
  mulf (dcol ei) (addf (agg hw ei) (hs hw ei))

/-- The embedding's column sums stood up as a row. -/
def shiftRow (ce : FVec Ideal S10x256 .f32) : FVec Ideal S1x256 .f32 :=
  broadcastInDim S1x256 ![1] bcast_S256_S1x256_1
    (Host.reduceAdd (F := Ideal) ce (constant (F := Ideal) S_ .f32 0x00000000#32) reducesTo_S10x256_S256_d0 h_S_)

variable (m : (ℓ : Loc nD τ sig) → Buf (Elt Ideal) ℓ) (ρ : Dev nD → PrngReg)

/-! ## At the first region's entry -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_v1 (c : Dev nD) :
    (V1 m ρ c main_v1 : S1x256.Idx → EReal) = shiftRow (m ((c : Thread nD τ).loc main_arg5)) := by
  show StableHlo.after hostOps0 (W0 m ρ c) (Proc.devRef .tc main_v1) = _
  after_results_simp <;> rfl

/-! ## At the first region's exit -/

theorem W2_v2 (c : Dev nD) : W2 m ρ c (Proc.devRef .tc main_v2) = (dat0 (V1 m ρ) c).arrAt 3 cfg0.N :=
  W2_arr m ρ c 3
theorem W1_arg (c : Dev nD) (b : Ref sig .tc)
    (h : StableHlo.after hostOps0 (W0 m ρ c) (Proc.devRef .tc b) = m ((c : Thread nD τ).loc b)) :
    W1 m ρ c (Proc.devRef .tc b) = m ((c : Thread nD τ).loc b) := h
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)

/-! ## At the second region's entry -/

theorem V3_v30 (c : Dev nD) :
    (V3 m ρ c main_v30 : S100000x10.Idx → EReal)
      = logits (W2 m ρ c (Proc.devRef .tc main_v2)) (W2 m ρ c (Proc.devRef .tc main_arg1)) := by
  show StableHlo.after hostOps1 (W2 m ρ c) (Proc.devRef .tc main_v30) = _
  after_results_simp <;> rfl
theorem V3_v31 (c : Dev nD) :
    (V3 m ρ c main_v31 : S1x10.Idx → EReal)
      = shapeCast S1x10 (W2 m ρ c (Proc.devRef .tc main_arg4) : S10.Idx → EReal) shapeCasts_S10_S1x10 := by
  show StableHlo.after hostOps1 (W2 m ρ c) (Proc.devRef .tc main_v31) = _
  after_results_simp <;> rfl
theorem V3_arg5 (c : Dev nD) : V3 m ρ c main_arg5 = W2 m ρ c (Proc.devRef .tc main_arg5) := by
  show StableHlo.after hostOps1 (W2 m ρ c) (Proc.devRef .tc main_arg5) = _
  after_results_simp <;> rfl
theorem V3_arg0 (c : Dev nD) : V3 m ρ c main_arg0 = W2 m ρ c (Proc.devRef .tc main_arg0) := by
  show StableHlo.after hostOps1 (W2 m ρ c) (Proc.devRef .tc main_arg0) = _
  after_results_simp <;> rfl

end Cert.KernelIdeal.HostSide

end
-- ==== Proof.LibLayoutRead.lean ====
import Idealize.ShloMosaic.Lib.ValueIdx
import Idealize.ShloMosaic.Lib.Pipeline.Value
import Idealize.ShloMosaic.PureOps.Ideal.Laws

/-!
# Small re-layings read at an index, and the word of 1.0

A scalar splat to any shape reads the scalar everywhere; a vector `[a]` stood up as a column `[a, 1]` reads the vector's
entry of the row; a column `[a, 1]` repeated along `b` columns reads the column's entry of the row; a vector `[b]` stood
up as a one-row matrix `[1, b]`, by a broadcast or by a shape cast, reads the vector's entry of the column. The extents
are arbitrary. The 32-bit pattern `0x3F800000` denotes the real number 1.
-/

namespace Cert.LibLayoutRead

open Idealize.ShloMosaic Idealize.ShloMosaic.ValueIdx

/-- A scalar broadcast to any shape reads the scalar at every index. -/
theorem splat_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector stood up as a column reads, in row `i`, the vector's entry `i`. -/
theorem column_apply {α : Type} {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun d => match d with
    | ⟨0, _⟩ => by
      show i.val = if a = 1 then 0 else i.val
      split
      · next h1 => have := i.isLt; omega
      · rfl)

/-- A column repeated along the columns reads, at `(i, c)`, the column's entry of row `i`. -/
theorem alongCols_apply {α : Type} {a b : ℕ} (h : (⟨2, ![a, 1]⟩ : Shape).BroadcastsInDim ⟨2, ![a, b]⟩ ![0, 1])
    (x : (⟨2, ![a, 1]⟩ : Shape).Idx → α) (i : Fin a) (c : Fin b) :
    broadcastInDim ⟨2, ![a, b]⟩ ![0, 1] h x (ix2 i c) = x (ix2 i (0 : Fin 1)) :=
  broadcastInDim_apply _ h x (ix2 i c) (ix2 i (0 : Fin 1)) (fun d => match d with
    | ⟨0, _⟩ => by
      show i.val = if a = 1 then 0 else i.val
      split
      · next h1 => have := i.isLt; omega
      · rfl
    | ⟨1, _⟩ => by
      show (0 : ℕ) = if (1 : ℕ) = 1 then 0 else c.val
      rw [if_pos rfl])

/-- A vector stood up as a one-row matrix by a broadcast reads, in column `k`, the vector's entry `k`. -/
theorem row_apply {α : Type} {b : ℕ} (h : (⟨1, ![b]⟩ : Shape).BroadcastsInDim ⟨2, ![1, b]⟩ ![1])
    (x : (⟨1, ![b]⟩ : Shape).Idx → α) (u : Fin 1) (k : Fin b) :
    broadcastInDim ⟨2, ![1, b]⟩ ![1] h x (ix2 u k) = x (ix1 k) :=
  broadcastInDim_apply _ h x (ix2 u k) (ix1 k) (fun d => match d with
    | ⟨0, _⟩ => by
      show k.val = if b = 1 then 0 else k.val
      split
      · next h1 => have := k.isLt; omega
      · rfl)

/-- A vector re-laid as a one-row matrix by a shape cast reads, in column `k`, the vector's entry `k`. -/
theorem castRow_apply {α : Type} {b : ℕ} (h : (⟨1, ![b]⟩ : Shape).ShapeCasts ⟨2, ![1, b]⟩)
    (x : (⟨1, ![b]⟩ : Shape).Idx → α) (u : Fin 1) (k : Fin b) :
    shapeCast ⟨2, ![1, b]⟩ x h (ix2 u k) = x (ix1 k) :=
  shapeCast_apply x h (ix2 u k) (ix1 k) (by
    rewrite [Shape.rowMajor_val_one, Shape.rowMajor_val_two]
    show k.val = u.val * b + k.val
    have hu : u.val = 0 := by have := u.isLt; omega
    rw [hu, Nat.zero_mul, Nat.zero_add])

/-- The pattern `0x3F800000` is the real number 1. -/
theorem one_word : Ideal.ofBits .f32 0x3F800000#32 = 1 := by
  simp [Ideal.ofBits, Ideal.ieee, -EReal.coe_mul]; norm_num

end Cert.LibLayoutRead
-- ==== Proof.LibScatterSet.lean ====
import Idealize.ShloMosaic.PureOps
import Idealize.ShloMosaic.Lib.ValueIdx

namespace Cert.Lib

open Idealize.ShloMosaic Idealize.ShloMosaic.ValueIdx

/-! ## A left fold of pointwise overwrites, read at one position -/

/-- A left fold whose every step leaves position `i` alone leaves the accumulator's value at `i`. -/
theorem foldl_apply_of_keep {β ι γ : Type} (step : (ι → γ) → β → (ι → γ)) (i : ι) (l : List β)
    (h : ∀ n ∈ l, ∀ r, step r n i = r i) (r : ι → γ) : l.foldl step r i = r i := by
  induction l generalizing r with
  | nil => rfl
  | cons n l ih =>
    rw [List.foldl_cons, ih (fun m hm => h m (List.mem_cons_of_mem _ hm)), h n List.mem_cons_self]

section General
variable {s si u : Shape} {α : Type} {w : Nat}

/-- An update index lands on `i` exactly when, on every axis, its start plus its window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have h1 := congrArg (fun f => (f a).val) e
      have h2 := h a
      simp only at h1
      omega
    · intro e
      funext a
      apply Fin.ext
      have h1 := e a
      have h2 := h a
      simp only
      omega
  · next h =>
    constructor
    · intro e; cases e
    · intro e
      exact absurd (fun a => by have h1 := e a; have h2 := (i a).isLt; omega) h

/-- A position no update index lands on keeps the operand's value. -/
theorem scatter_set_miss (d : ScatterDims s si u) (x : s.Idx → α) (idx : IVec si w) (upd : u.Idx → α)
    (i : s.Idx) (hmiss : ∀ j, d.resultIdx? j idx ≠ some i) : Host.scatter d (fun _ b => b) x idx upd i = x i := by
  unfold Host.scatter
  refine foldl_apply_of_keep _ i _ (fun n _ r => ?_) x
  generalize ho : d.resultIdx? (u.rowMajor.symm n) idx = o
  cases o with
  | none => rfl
  | some i0 => exact if_neg (fun e => hmiss _ (e ▸ ho))

/-- When the body returns the update and exactly one update index lands on a position, the result there is that
    update's value. -/
theorem scatter_set_hit (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  unfold Host.scatter
  have hmem : u.rowMajor j₀ ∈ List.finRange u.numel := List.mem_finRange _
  have hnd := List.nodup_finRange u.numel
  generalize List.finRange u.numel = l at hmem hnd
  induction l generalizing x with
  | nil => cases hmem
  | cons n l ih =>
    rw [List.foldl_cons]
    rw [List.nodup_cons] at hnd
    by_cases hn : n = u.rowMajor j₀
    · subst hn
      rw [foldl_apply_of_keep _ i l (fun m hm r => ?_)]
      · simp only [Equiv.symm_apply_apply, h₀, if_true]
      · generalize ho : d.resultIdx? (u.rowMajor.symm m) idx = o
        cases o with
        | none => rfl
        | some i0 =>
          refine if_neg (fun e => ?_)
          subst e
          have := huniq _ ho
          exact hnd.1 (by rw [← this, Equiv.apply_symm_apply]; exact hm)
    · rcases List.mem_cons.1 hmem with e | hm
      · exact absurd e.symm hn
      · exact ih _ hm hnd.2

end General

/-! ## A block of channels written into `[16, 64, 256, 256]` at a run-time first channel -/

section Channels

/-- The dimension numbers of writing a `[16, C, 256, 256]` block into a `[16, 64, 256, 256]` array at one scatter
    index that names the first channel: every update axis is a window axis, nothing is inserted, and the one
    component of the start index goes to axis 1. -/
abbrev chanDims (C : Nat)
    (wf : ScatterDims.WF ⟨4, ![16, 64, 256, 256]⟩ ⟨1, ![1]⟩ ⟨4, ![16, C, 256, 256]⟩ [0, 1, 2, 3] [] [1] 0) :
    ScatterDims ⟨4, ![16, 64, 256, 256]⟩ ⟨1, ![1]⟩ ⟨4, ![16, C, 256, 256]⟩ :=
  ⟨[0, 1, 2, 3], [], [1], 0, wf⟩

/-- The window coordinate on every axis is the update index's own coordinate. -/
theorem chanDims_window (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) (a : Fin 4) : (chanDims C wf).window j a = (j a).val := by
  have hk : ∀ a : Fin 4, a ∈ Shape.kept ⟨4, ![16, 64, 256, 256]⟩ [] := by decide
  unfold ScatterDims.window
  rw [dif_pos (show a ∈ (chanDims C wf).sKept from hk a)]
  match a with
  | ⟨0, _⟩ => rfl
  | ⟨1, _⟩ => rfl
  | ⟨2, _⟩ => rfl
  | ⟨3, _⟩ => rfl

/-- The window starts at the scatter index's value on the channel axis and at `0` on the others. -/
theorem chanDims_start (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) {w : Nat} (idx : IVec ⟨1, ![1]⟩ w) (a : Fin 4) :
    (chanDims C wf).start j idx a = if a = 1 then (idx (ix1 0)).toInt else 0 := by
  unfold ScatterDims.start
  by_cases ha : a = 1
  · subst ha
    rw [dif_pos (show (1 : Fin 4) ∈ (chanDims C wf).scatterDimsToOperandDims from List.mem_singleton.mpr rfl),
      if_pos rfl]
    have hsi : (chanDims C wf).siIdx j ⟨List.idxOf (1 : Fin 4) (chanDims C wf).scatterDimsToOperandDims,
        List.idxOf_lt_length_iff.2 (List.mem_singleton.mpr rfl)⟩ = ix1 0 := by
      funext b; refine Fin.ext ?_
      match b with
      | ⟨0, _⟩ => rfl
    rw [hsi]
  · rw [dif_neg (show a ∉ (chanDims C wf).scatterDimsToOperandDims from fun h => ha (List.mem_singleton.mp h)),
      if_neg ha]

/-- An update index lands on `(n, ch, h, w)` exactly when its coordinates are `n`, `ch - k`, `h`, `w`, `k` the first
    channel the scatter index names. -/
theorem chanDims_resultIdx?_iff (C : Nat)
    (wf : ScatterDims.WF ⟨4, ![16, 64, 256, 256]⟩ ⟨1, ![1]⟩ ⟨4, ![16, C, 256, 256]⟩ [0, 1, 2, 3] [] [1] 0)
    {v : Nat} (idx : IVec ⟨1, ![1]⟩ v) (k : Nat) (hidx : (idx (ix1 0)).toInt = (k : Int))
    (j : (⟨4, ![16, C, 256, 256]⟩ : Shape).Idx) (n : Fin 16) (ch : Fin 64) (h : Fin 256) (w : Fin 256) :
    (chanDims C wf).resultIdx? j idx = some (ix4 n ch h w) ↔
      (j 0).val = n.val ∧ k + (j 1).val = ch.val ∧ (j 2).val = h.val ∧ (j 3).val = w.val := by
  rw [resultIdx?_eq_some_iff]
  have key : ∀ a : Fin 4, (chanDims C wf).start j idx a + ((chanDims C wf).window j a : Int)
      = (if a = 1 then (k : Int) else 0) + ((j a).val : Int) := by
    intro a; rw [chanDims_start, chanDims_window, hidx]
  constructor
  · intro e
    have e0 : (0 : Int) + ((j 0).val : Int) = (n.val : Int) := (key 0).symm.trans (e (0 : Fin 4))
    have e1 : (k : Int) + ((j 1).val : Int) = (ch.val : Int) := (key 1).symm.trans (e (1 : Fin 4))
    have e2 : (0 : Int) + ((j 2).val : Int) = (h.val : Int) := (key 2).symm.trans (e (2 : Fin 4))
    have e3 : (0 : Int) + ((j 3).val : Int) = (w.val : Int) := (key 3).symm.trans (e (3 : Fin 4))
    omega
  · rintro ⟨e0, e1, e2, e3⟩ a
    refine (key a).trans ?_
    match a with
    | ⟨0, _⟩ => show (0 : Int) + ((j 0).val : Int) = (n.val : Int); omega
    | ⟨1, _⟩ => show (k : Int) + ((j 1).val : Int) = (ch.val : Int); omega
    | ⟨2, _⟩ => show (0 : Int) + ((j 2).val : Int) = (h.val : Int); omega
    | ⟨3, _⟩ => show (0 : Int) + ((j 3).val : Int) = (w.val : Int); omega

/-- THE SCATTER READ AT `(n, ch, h, w)`: inside the written block of channels `[k, k + C)` it is the update at
    channel `ch - k`, outside it the operand. -/
theorem scatter_channels_apply {α : Type} (C : Nat)
    (wf : ScatterDims.WF ⟨4, ![16, 64, 256, 256]⟩ ⟨1, ![1]⟩ ⟨4, ![16, C, 256, 256]⟩ [0, 1, 2, 3] [] [1] 0)
    (x : (⟨4, ![16, 64, 256, 256]⟩ : Shape).Idx → α) (idx : IVec ⟨1, ![1]⟩ 32) (k : Nat)
    (hidx : (idx (ix1 0)).toInt = (k : Int)) (hk : k + C ≤ 64)
    (upd : (⟨4, ![16, C, 256, 256]⟩ : Shape).Idx → α) (n : Fin 16) (ch : Fin 64) (h : Fin 256) (w : Fin 256) :
    Host.scatter (⟨[0, 1, 2, 3], [], [1], 0, wf⟩ : ScatterDims ⟨4, ![16, 64, 256, 256]⟩ ⟨1, ![1]⟩ ⟨4, ![16, C, 256, 256]⟩)
        (fun _ b => b) x idx upd (ix4 n ch h w)
      = if hc : k ≤ ch.val ∧ ch.val < k + C then upd (ix4 n ⟨ch.val - k, by omega⟩ h w) else x (ix4 n ch h w) := by
  have hiff := fun j => chanDims_resultIdx?_iff C wf idx k hidx j n ch h w
  split
  · next hc =>
    refine scatter_set_hit (chanDims C wf) x idx upd _ _ ((hiff _).2 ⟨rfl, ?_, rfl, rfl⟩) (fun j hj => ?_)
    · show k + (ch.val - k) = ch.val
      omega
    · obtain ⟨e0, e1, e2, e3⟩ := (hiff j).1 hj
      funext a
      refine Fin.ext ?_
      match a with
      | ⟨0, _⟩ => exact e0
      | ⟨1, _⟩ => show (j 1).val = ch.val - k; omega
      | ⟨2, _⟩ => exact e2
      | ⟨3, _⟩ => exact e3
  · next hc =>
    refine scatter_set_miss (chanDims C wf) x idx upd _ (fun j hj => hc ?_)
    obtain ⟨e0, e1, e2, e3⟩ := (hiff j).1 hj
    have hj1 : (j 1).val < C := (j 1).isLt
    omega

end Channels

end Cert.Lib
-- ==== Proof.LibEdgeOps.lean ====
import proofs.«168597_j74852690035344_2_alg».proof.Proof.LibScatterSet
import Idealize.ShloMosaic.Lib.ValueIdx
import Idealize.ShloMosaic.PureOps.Ideal.Laws

/-!
# Gathers and an accumulating scatter along one axis, read at an index

Three index-driven operations, each driven by an `[E, 1]` array of integer words (one start index per row, read
signed), at arbitrary sizes `N`, `C`, `E` and an arbitrary index width:

* the accumulating scatter of an `[E]` vector of updates into an `[N]` operand: the result at `n` is the operand
  there plus the sum of the updates `e` whose scatter index is `n`; an index that is negative or at least `N` lands
  nowhere (`host_scatterAdd_vec_apply`);
* the gather of `E` rows of an `[N, C]` operand: result row `e` is the operand's row at the `e`-th start index read
  signed and clamped into `[0, N − 1]` (`gather_rows_apply`);
* the gather of `E` entries of an `[N]` operand, likewise clamped (`gather_vec_apply`).

Then a few facts about 32-bit index words: a small natural number's word reads back signed as itself; the wrap of a
negative index (`v < 0 ? v + K : v`) leaves a non-negative word alone; and the gather's clamp of a word whose signed
value is an in-range `n` is `n`.
-/

open scoped BigOperators

namespace Cert.LibEdgeOps

open Idealize.ShloMosaic Idealize.ShloMosaic.ValueIdx

/-! ## The accumulating scatter of a vector -/

section VecScatterLiteral
variable {N E : Nat}

/-- The dimension numbers of adding the entries of an `[E]` vector of updates into an `[N]` operand at `E` scatter
    indices held in an `[E, 1]` array: the updates have no window axis, operand axis 0 is inserted, and the one
    component of each start index goes to operand axis 0. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

/-- The operand has no axis that is not inserted. -/
theorem vecDims_sKept (wf : ScatterDims.WF ⟨1, ![N]⟩ ⟨2, ![E, 1]⟩ ⟨1, ![E]⟩ [] [0] [0] 1) :
    (vecDims N E wf).sKept = [] :=
  (by decide : (List.finRange 1).filter (fun a => a ∉ [(0 : Fin 1)]) = [])

/-- The window coordinate on the operand's one axis is `0`: that axis is inserted. -/
theorem vecDims_window (wf : ScatterDims.WF ⟨1, ![N]⟩ ⟨2, ![E, 1]⟩ ⟨1, ![E]⟩ [] [0] [0] 1)
    (j : (⟨1, ![E]⟩ : Shape).Idx) : (vecDims N E wf).window j 0 = 0 := by
  unfold ScatterDims.window
  refine dif_neg ?_
  rw [vecDims_sKept]
  exact List.not_mem_nil

/-- The window starts at the position the update's scatter index names, read signed. -/
theorem vecDims_start (wf : ScatterDims.WF ⟨1, ![N]⟩ ⟨2, ![E, 1]⟩ ⟨1, ![E]⟩ [] [0] [0] 1)
    (j : (⟨1, ![E]⟩ : Shape).Idx) {w : Nat} (idx : IVec ⟨2, ![E, 1]⟩ w) :
    (vecDims N E wf).start j idx 0 = (idx (ix2 ⟨(j 0).val, (j 0).isLt⟩ (0 : Fin 1))).toInt := by
  unfold ScatterDims.start
  have hmem : (0 : Fin 1) ∈ (vecDims N E wf).scatterDimsToOperandDims := List.mem_singleton.mpr rfl
  refine (dif_pos hmem).trans ?_
  have hsi : (vecDims N E wf).siIdx j ⟨List.idxOf (0 : Fin 1) (vecDims N E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- An update index lands on `n` exactly when its scatter index, read signed, is `n`. -/
theorem vecDims_resultIdx?_iff (wf : ScatterDims.WF ⟨1, ![N]⟩ ⟨2, ![E, 1]⟩ ⟨1, ![E]⟩ [] [0] [0] 1)
    {w : Nat} (idx : IVec ⟨2, ![E, 1]⟩ w) (j : (⟨1, ![E]⟩ : Shape).Idx) (n : Fin N) :
    (vecDims N E wf).resultIdx? j idx = some (ix1 n) ↔
      (idx (ix2 ⟨(j 0).val, (j 0).isLt⟩ (0 : Fin 1))).toInt = (n.val : Int) := by
  rw [Cert.Lib.resultIdx?_eq_some_iff]
  have k0 : (vecDims N E wf).start j idx 0 + ((vecDims N E wf).window j 0 : Int)
      = (idx (ix2 ⟨(j 0).val, (j 0).isLt⟩ (0 : Fin 1))).toInt := by
    rw [vecDims_start, vecDims_window]; simp
  constructor
  · intro e
    exact k0.symm.trans (e (0 : Fin 1))
  · intro e0 a
    match a with
    | ⟨0, _⟩ => exact k0.trans e0

end VecScatterLiteral

section VecScatter
variable {N E : Nat}

/-- The dimension numbers `d` are those of a vector scatter: no update window axis, operand axis 0 inserted, the
    start index's one component sent to operand axis 0, and the index vector on axis 1 of the scatter indices. -/
structure VecScatter (d : ScatterDims ⟨1, ![N]⟩ ⟨2, ![E, 1]⟩ ⟨1, ![E]⟩) : Prop where
  uw : d.updateWindowDims = []
  iw : d.insertedWindowDims = [0]
  sd : d.scatterDimsToOperandDims = [0]
  iv : d.indexVectorDim = 1

/-- For a vector scatter, update index `j` lands on `n` exactly when the scatter index of entry `j 0`, read signed,
    is `n`. -/
theorem vec_resultIdx?_iff (d : ScatterDims ⟨1, ![N]⟩ ⟨2, ![E, 1]⟩ ⟨1, ![E]⟩) (h : VecScatter d) {w : Nat}
    (idx : IVec ⟨2, ![E, 1]⟩ w) (j : (⟨1, ![E]⟩ : Shape).Idx) (n : Fin N) :
    d.resultIdx? j idx = some (ix1 n) ↔
      (idx (ix2 ⟨(j 0).val, (j 0).isLt⟩ (0 : Fin 1))).toInt = (n.val : Int) := by
  obtain ⟨uw, iw, sd, iv, wf⟩ := d
  obtain ⟨h1, h2, h3, h4⟩ := h
  dsimp only at h1 h2 h3 h4
  subst h1 h2 h3 h4
  exact vecDims_resultIdx?_iff wf idx j n

/-- THE ACCUMULATING VECTOR SCATTER READ AT `n`: the operand there plus the sum, over the entries `e` of the updates
    whose scatter index read signed is `n`, of the update at `e`. Entries whose index is negative or at least `N`
    contribute to no position. -/
theorem scatterAdd_vec_apply (d : ScatterDims ⟨1, ![N]⟩ ⟨2, ![E, 1]⟩ ⟨1, ![E]⟩) (h : VecScatter d) {w : Nat}
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx?_iff d h idx (ix1 e) n).2 he.2⟩
  · intro e₁ _ e₂ _ heq
    exact congrFun heq (0 : Fin 1)
  · intro j hj
    rw [Finset.mem_filter] at hj
    have h0 := (vec_resultIdx?_iff d h idx j n).1 hj.2
    refine ⟨⟨(j 0).val, (j 0).isLt⟩, Finset.mem_filter.2 ⟨Finset.mem_univ _, h0⟩, ?_⟩
    funext a
    match a with
    | ⟨0, _⟩ => rfl
  · intro e _
    rfl

/-- The same reading of the host's accumulating scatter operation at the ideal instance. -/
theorem host_scatterAdd_vec_apply {w : Nat} (d : ScatterDims ⟨1, ![N]⟩ ⟨2, ![E, 1]⟩ ⟨1, ![E]⟩) (h : VecScatter d)
    (x : FVec Ideal ⟨1, ![N]⟩ .f32) (idx : IVec ⟨2, ![E, 1]⟩ w)
    (upd : FVec Ideal ⟨1, ![E]⟩ .f32) (n : Fin N) :
    Host.scatterAdd (F := Ideal) (φ := .f32) d x idx upd (ix1 n)
      = x (ix1 n) + ∑ e ∈ Finset.univ.filter (fun e : Fin E => (idx (ix2 e (0 : Fin 1))).toInt = (n.val : Int)),
          upd (ix1 e) :=
  scatterAdd_vec_apply d h x idx upd n

end VecScatter

/-! ## The gather of rows -/

section RowGather
variable {N C E : Nat}

/-- The dimension numbers of reading `E` rows of an `[N, C]` operand at start indices held in an `[E, 1]` array: result
    axis 1 is the offset axis, operand axis 0 is collapsed, the one component of each start index goes to operand
    axis 0, and a slice is one row, `[1, C]`. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand's axes that are neither collapsed nor batching: the column axis alone. -/
theorem rowGatherDims_sKept (wf : GatherDims.WF ⟨2, ![N, C]⟩ ⟨2, ![E, 1]⟩ ⟨2, ![E, C]⟩ [1] [0] [] [0] [] 1 ![1, C]) :
    (rowGatherDims N C E wf).sKept = [(1 : Fin 2)] :=
  (by decide : (List.finRange 2).filter (fun a => a ∉ [(0 : Fin 2)] ++ []) = [1])

/-- On the row axis the slice starts at the start index read signed and clamped into `[0, N − 1]`. -/
theorem rowGatherDims_start_row (wf : GatherDims.WF ⟨2, ![N, C]⟩ ⟨2, ![E, 1]⟩ ⟨2, ![E, C]⟩ [1] [0] [] [0] [] 1 ![1, C])
    (j : (⟨2, ![E, C]⟩ : Shape).Idx) {w : Nat} (idx : IVec ⟨2, ![E, 1]⟩ w) :
    (rowGatherDims N C E wf).start j idx 0
      = min (idx (ix2 ⟨(j 0).val, (j 0).isLt⟩ (0 : Fin 1))).toInt.toNat (N - 1) := by
  unfold GatherDims.start
  have hmem : (0 : Fin 2) ∈ (rowGatherDims N C E wf).startIndexMap := List.mem_singleton.mpr rfl
  refine (dif_pos hmem).trans ?_
  have hsi : (rowGatherDims N C E wf).siIdx j ⟨List.idxOf (0 : Fin 2) (rowGatherDims N C E wf).startIndexMap,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  rw [hsi]
  rfl

/-- On the column axis the slice starts at `0`: no component of the start index goes there. -/
theorem rowGatherDims_start_col (wf : GatherDims.WF ⟨2, ![N, C]⟩ ⟨2, ![E, 1]⟩ ⟨2, ![E, C]⟩ [1] [0] [] [0] [] 1 ![1, C])
    (j : (⟨2, ![E, C]⟩ : Shape).Idx) {w : Nat} (idx : IVec ⟨2, ![E, 1]⟩ w) :
    (rowGatherDims N C E wf).start j idx 1 = 0 := by
  unfold GatherDims.start
  refine dif_neg (fun h => ?_)
  exact absurd (List.mem_singleton.mp h) (by decide : ¬ (1 : Fin 2) = 0)

/-- The offset coordinate on the row axis is `0`: that axis is collapsed. -/
theorem rowGatherDims_off_row (wf : GatherDims.WF ⟨2, ![N, C]⟩ ⟨2, ![E, 1]⟩ ⟨2, ![E, C]⟩ [1] [0] [] [0] [] 1 ![1, C])
    (j : (⟨2, ![E, C]⟩ : Shape).Idx) : (rowGatherDims N C E wf).offCoord j 0 = 0 := by
  refine GatherDims.offCoord_eq_zero _ _ _ ?_
  rw [rowGatherDims_sKept]
  exact (by decide : (0 : Fin 2) ∉ [(1 : Fin 2)])

/-- The offset coordinate on the column axis is the result index's column. -/
theorem rowGatherDims_off_col (wf : GatherDims.WF ⟨2, ![N, C]⟩ ⟨2, ![E, 1]⟩ ⟨2, ![E, C]⟩ [1] [0] [] [0] [] 1 ![1, C])
    (j : (⟨2, ![E, C]⟩ : Shape).Idx) : (rowGatherDims N C E wf).offCoord j 1 = (j 1).val := by
  unfold GatherDims.offCoord
  refine (dif_pos ?_).trans rfl
  rw [rowGatherDims_sKept]
  exact List.mem_singleton.mpr rfl

/-- The gather with the literal dimension numbers, read at `(e, c)`. -/
theorem rowGatherDims_apply {α : Type} (hN : 0 < N)
    (wf : GatherDims.WF ⟨2, ![N, C]⟩ ⟨2, ![E, 1]⟩ ⟨2, ![E, C]⟩ [1] [0] [] [0] [] 1 ![1, C]) {w : Nat}
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil, rowGatherDims_off_row, rowGatherDims_start_row]
    rfl
  | ⟨1, _⟩ =>
    show (rowGatherDims N C E wf).start (ix2 e c) idx 1 + (rowGatherDims N C E wf).batchCoord (ix2 e c) 1
      + (rowGatherDims N C E wf).offCoord (ix2 e c) 1 = _
    rw [GatherDims.batchCoord_eq_zero _ _ _ List.not_mem_nil, rowGatherDims_off_col, rowGatherDims_start_col]
    exact ((by omega : ∀ v : Nat, 0 + 0 + v = v) _).trans rfl

/-- The dimension numbers `d` are those of a row gather: result axis 1 the offset axis, operand axis 0 collapsed, no
    batching axes, the start index's one component sent to operand axis 0, the index vector on axis 1 of the start
    indices, and slices of one row. -/
structure RowGather (d : GatherDims ⟨2, ![N, C]⟩ ⟨2, ![E, 1]⟩ ⟨2, ![E, C]⟩) : Prop where
  od : d.offsetDims = [1]
  cs : d.collapsedSliceDims = [0]
  ob : d.operandBatchingDims = []
  sb : d.startIndicesBatchingDims = []
  sim : d.startIndexMap = [0]
  iv : d.indexVectorDim = 1
  ss : d.sliceSizes = ![1, C]

/-- THE ROW GATHER READ AT `(e, c)`: the operand at column `c` of the row the `e`-th start index names, that index
    read signed (a negative one is `0`) and clamped to `N − 1`, the last row a one-row slice can start at. -/
theorem gather_rows_apply {α : Type} {w : Nat} (hN : 0 < N) (d : GatherDims ⟨2, ![N, C]⟩ ⟨2, ![E, 1]⟩ ⟨2, ![E, C]⟩)
    (h : RowGather d) (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  obtain ⟨od, cs, ob, sb, sim, iv, ss, wf⟩ := d
  obtain ⟨h1, h2, h3, h4, h5, h6, h7⟩ := h
  dsimp only at h1 h2 h3 h4 h5 h6 h7
  subst h1 h2 h3 h4 h5 h6 h7
  exact rowGatherDims_apply hN wf x idx e c

end RowGather

/-- The row gather read at `(e, c)` when the clamped start index is known to be the row `n`. -/
theorem gather_rows_apply_of_eq {N C E : Nat} {α : Type} {w : Nat} (hN : 0 < N)
    (d : GatherDims ⟨2, ![N, C]⟩ ⟨2, ![E, 1]⟩ ⟨2, ![E, C]⟩) (h : RowGather d)
    (x : (⟨2, ![N, C]⟩ : Shape).Idx → α) (idx : IVec ⟨2, ![E, 1]⟩ w) (e : Fin E) (c : Fin C) (n : Fin N)
    (hn : min (idx (ix2 e (0 : Fin 1))).toInt.toNat (N - 1) = n.val) :
    Host.gather d x idx (ix2 e c) = x (ix2 n c) := by
  rw [gather_rows_apply hN d h x idx e c]
  exact congrArg (fun r => x (ix2 r c)) (Fin.ext hn)

/-! ## The gather of entries of a vector -/

section VecGather
variable {N E : Nat}

/-- The dimension numbers of reading `E` entries of an `[N]` operand at start indices held in an `[E, 1]` array: the
    result has no offset axis, operand axis 0 is collapsed, the one component of each start index goes to operand
    axis 0, and a slice is one entry. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the start index read signed and clamped into `[0, N − 1]`. -/
theorem vecGatherDims_start (wf : GatherDims.WF ⟨1, ![N]⟩ ⟨2, ![E, 1]⟩ ⟨1, ![E]⟩ [] [0] [] [0] [] 1 ![1])
    (j : (⟨1, ![E]⟩ : Shape).Idx) {w : Nat} (idx : IVec ⟨2, ![E, 1]⟩ w) :
    (vecGatherDims N E wf).start j idx 0
      = min (idx (ix2 ⟨(j 0).val, (j 0).isLt⟩ (0 : Fin 1))).toInt.toNat (N - 1) := by
  unfold GatherDims.start
  have hmem : (0 : Fin 1) ∈ (vecGatherDims N E wf).startIndexMap := List.mem_singleton.mpr rfl
  refine (dif_pos hmem).trans ?_
  have hsi : (vecGatherDims N E wf).siIdx j ⟨List.idxOf (0 : Fin 1) (vecGatherDims N E wf).startIndexMap,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  rw [hsi]
  rfl

/-- The gather with the literal dimension numbers, read at `e`. -/
theorem vecGatherDims_apply {α : Type} (hN : 0 < N)
    (wf : GatherDims.WF ⟨1, ![N]⟩ ⟨2, ![E, 1]⟩ ⟨1, ![E]⟩ [] [0] [] [0] [] 1 ![1]) {w : Nat}
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGatherDims_start]
  rfl

/-- The dimension numbers `d` are those of a vector gather: no offset axis, operand axis 0 collapsed, no batching
    axes, the start index's one component sent to operand axis 0, the index vector on axis 1 of the start indices,
    and slices of one entry. -/
structure VecGather (d : GatherDims ⟨1, ![N]⟩ ⟨2, ![E, 1]⟩ ⟨1, ![E]⟩) : Prop where
  od : d.offsetDims = []
  cs : d.collapsedSliceDims = [0]
  ob : d.operandBatchingDims = []
  sb : d.startIndicesBatchingDims = []
  sim : d.startIndexMap = [0]
  iv : d.indexVectorDim = 1
  ss : d.sliceSizes = ![1]

/-- THE VECTOR GATHER READ AT `e`: the operand at the entry the `e`-th start index names, that index read signed (a
    negative one is `0`) and clamped to `N − 1`. -/
theorem gather_vec_apply {α : Type} {w : Nat} (hN : 0 < N) (d : GatherDims ⟨1, ![N]⟩ ⟨2, ![E, 1]⟩ ⟨1, ![E]⟩)
    (h : VecGather d) (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cs, ob, sb, sim, iv, ss, wf⟩ := d
  obtain ⟨h1, h2, h3, h4, h5, h6, h7⟩ := h
  dsimp only at h1 h2 h3 h4 h5 h6 h7
  subst h1 h2 h3 h4 h5 h6 h7
  exact vecGatherDims_apply hN wf x idx e

end VecGather

/-- The vector gather read at `e` when the clamped start index is known to be the entry `n`. -/
theorem gather_vec_apply_of_eq {N E : Nat} {α : Type} {w : Nat} (hN : 0 < N)
    (d : GatherDims ⟨1, ![N]⟩ ⟨2, ![E, 1]⟩ ⟨1, ![E]⟩) (h : VecGather d)
    (x : (⟨1, ![N]⟩ : Shape).Idx → α) (idx : IVec ⟨2, ![E, 1]⟩ w) (e : Fin E) (n : Fin N)
    (hn : min (idx (ix2 e (0 : Fin 1))).toInt.toNat (N - 1) = n.val) :
    Host.gather d x idx (ix1 e) = x (ix1 n) := by
  rw [gather_vec_apply hN d h x idx e]
  exact congrArg (fun r => x (ix1 r)) (Fin.ext hn)

/-! ## 32-bit index words: the wrap of a negative index, then the gather's clamp -/

section Words

/-- The word of a natural number below `2 ^ 31` reads back signed as that number. -/
theorem toInt_ofNat_small (i : Nat) (h : i < 2 ^ 31) : (BitVec.ofNat 32 i).toInt = (i : Int) := by
  have hn : (BitVec.ofNat 32 i).toNat = i := by
    rw [BitVec.toNat_ofNat]
    exact Nat.mod_eq_of_lt (by omega)
  rw [BitVec.toInt_eq_toNat_of_lt (by rw [hn]; omega), hn]

/-- The wrap of a possibly negative index word `v` by the length `K`: `v + K` when `v` is below zero signed, else
    `v`. -/
def wrapAt (K v : BitVec 32) : BitVec 32 :=
  Scalar.select (IntOp.cmpi .slt v 0#32) (IntOp.addi v K) v

/-- The wrap spelled out. -/
theorem wrapAt_eq (K v : BitVec 32) :
    wrapAt K v = Scalar.select (IntOp.cmpi .slt v 0#32) (IntOp.addi v K) v := rfl

/-- A non-negative word is not below zero signed, so the select keeps it. -/
theorem wrap_of_nonneg (K v : BitVec 32) (h : 0 ≤ v.toInt) :
    Scalar.select (IntOp.cmpi .slt v 0#32) (IntOp.addi v K) v = v := by
  have hs : v.slt 0#32 = false := by
    rw [BitVec.slt]
    exact decide_eq_false (by rw [BitVec.toInt_zero]; omega)
  have hc : IntOp.cmpi .slt v 0#32 = 0#1 := by
    show BitVec.ofBool (v.slt 0#32) = 0#1
    rw [hs]; rfl
  rw [hc]
  exact select_zero _ _

/-- The gather's clamp of a word whose signed value is an in-range `n` is `n`. -/
theorem clamp_of_toInt_eq {N : Nat} (v : BitVec 32) (n : Fin N) (h : v.toInt = (n.val : Int)) :
    min v.toInt.toNat (N - 1) = n.val := by
  rw [h, Int.toNat_natCast]
  have := n.isLt
  omega

/-- The wrap followed by the clamp, of a word whose signed value is an in-range `n`, is `n`. -/
theorem clamp_wrap_of_toInt_eq {N : Nat} (K v : BitVec 32) (n : Fin N) (h : v.toInt = (n.val : Int)) :
    min (Scalar.select (IntOp.cmpi .slt v 0#32) (IntOp.addi v K) v).toInt.toNat (N - 1) = n.val := by
  rw [wrap_of_nonneg K v (by rw [h]; exact Int.natCast_nonneg _)]
  exact clamp_of_toInt_eq v n h

end Words

end Cert.LibEdgeOps
-- ==== Proof.LibScatterRows.lean ====
import proofs.«168597_j74852690035344_2_alg».proof.Proof.LibScatterSet

/-!
# An accumulating scatter of rows, read at an index

An `[N, C]` operand receives the rows of an `[E, C]` array of updates: row `e` of the updates is added into the operand's
row named by the `e`-th scatter index, an entry of an `[E, 1]` array of integer words read signed. Several rows may name
the same operand row, and a row whose index is negative or at least `N` lands nowhere.

For the dimension numbers of such a scatter (update axis 1 the window axis, operand axis 0 inserted, the one component
of the start index sent to operand axis 0, the index vector on axis 1 of the scatter indices):

* update index `j` lands on `(n, c)` exactly when the scatter index of row `j 0` is `n` and `j 1 = c`
  (`rows_resultIdx?_iff`);
* at the ideal instance the result at `(n, c)` is the operand there plus the sum, over the rows `e` whose scatter index
  is `n`, of the update at `(e, c)` (`scatterAdd_rows_apply`, `host_scatterAdd_rows_apply`).

The sizes `N`, `C`, `E` and the index width are arbitrary.
-/

open scoped BigOperators

namespace Cert.LibScatterRows

open Idealize.ShloMosaic Idealize.ShloMosaic.ValueIdx

/-! ## The literal dimension numbers of a row scatter -/

section Literal
variable {N C E : Nat}

/-- The dimension numbers of adding the rows of an `[E, C]` array of updates into an `[N, C]` operand at `E` scatter
    indices held in an `[E, 1]` array: update axis 1 is the window axis, operand axis 0 is inserted, and the one
    component of each start index goes to operand axis 0. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

/-- The operand's axes that are not inserted: the column axis alone. -/
theorem rowDims_sKept (wf : ScatterDims.WF ⟨2, ![N, C]⟩ ⟨2, ![E, 1]⟩ ⟨2, ![E, C]⟩ [1] [0] [0] 1) :
    (rowDims N C E wf).sKept = [(1 : Fin 2)] :=
  (by decide : (List.finRange 2).filter (fun a => a ∉ [(0 : Fin 2)]) = [1])

/-- The window coordinate on the row axis is `0`: that axis is inserted. -/
theorem rowDims_window_row (wf : ScatterDims.WF ⟨2, ![N, C]⟩ ⟨2, ![E, 1]⟩ ⟨2, ![E, C]⟩ [1] [0] [0] 1)
    (j : (⟨2, ![E, C]⟩ : Shape).Idx) : (rowDims N C E wf).window j 0 = 0 := by
  unfold ScatterDims.window
  refine dif_neg ?_
  rw [rowDims_sKept]
  exact (by decide : (0 : Fin 2) ∉ [(1 : Fin 2)])

/-- The window coordinate on the column axis is the update index's column. -/
theorem rowDims_window_col (wf : ScatterDims.WF ⟨2, ![N, C]⟩ ⟨2, ![E, 1]⟩ ⟨2, ![E, C]⟩ [1] [0] [0] 1)
    (j : (⟨2, ![E, C]⟩ : Shape).Idx) : (rowDims N C E wf).window j 1 = (j 1).val := by
  unfold ScatterDims.window
  refine (dif_pos ?_).trans rfl
  rw [rowDims_sKept]
  exact List.mem_singleton.mpr rfl

/-- On the row axis the window starts at the row the update's scatter index names, read signed. -/
theorem rowDims_start_row (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 0 = (idx (ix2 ⟨(j 0).val, (j 0).isLt⟩ (0 : Fin 1))).toInt := by
  unfold ScatterDims.start
  have hmem : (0 : Fin 2) ∈ (rowDims N C E wf).scatterDimsToOperandDims := List.mem_singleton.mpr rfl
  refine (dif_pos hmem).trans ?_
  have hsi : (rowDims N C E wf).siIdx j ⟨List.idxOf (0 : Fin 2) (rowDims N C E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- On the column axis the window starts at `0`: no component of the start index goes there. -/
theorem rowDims_start_col (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 1 = 0 := by
  unfold ScatterDims.start
  refine dif_neg (fun h => ?_)
  exact absurd (List.mem_singleton.mp h) (by decide : ¬ (1 : Fin 2) = 0)

/-- An update index lands on `(n, c)` exactly when its row's scatter index, read signed, is `n` and its column is
    `c`. -/
theorem rowDims_resultIdx?_iff (wf : ScatterDims.WF ⟨2, ![N, C]⟩ ⟨2, ![E, 1]⟩ ⟨2, ![E, C]⟩ [1] [0] [0] 1)
    {w : Nat} (idx : IVec ⟨2, ![E, 1]⟩ w) (j : (⟨2, ![E, C]⟩ : Shape).Idx) (n : Fin N) (c : Fin C) :
    (rowDims N C E wf).resultIdx? j idx = some (ix2 n c) ↔
      (idx (ix2 ⟨(j 0).val, (j 0).isLt⟩ (0 : Fin 1))).toInt = (n.val : Int) ∧ (j 1).val = c.val := by
  rw [Cert.Lib.resultIdx?_eq_some_iff]
  have k0 : (rowDims N C E wf).start j idx 0 + ((rowDims N C E wf).window j 0 : Int)
      = (idx (ix2 ⟨(j 0).val, (j 0).isLt⟩ (0 : Fin 1))).toInt := by
    rw [rowDims_start_row, rowDims_window_row]; simp
  have k1 : (rowDims N C E wf).start j idx 1 + ((rowDims N C E wf).window j 1 : Int) = ((j 1).val : Int) := by
    rw [rowDims_start_col, rowDims_window_col]; simp
  constructor
  · intro e
    have e0 : (idx (ix2 ⟨(j 0).val, (j 0).isLt⟩ (0 : Fin 1))).toInt = (n.val : Int) := k0.symm.trans (e (0 : Fin 2))
    have e1 : ((j 1).val : Int) = (c.val : Int) := k1.symm.trans (e (1 : Fin 2))
    exact ⟨e0, by exact_mod_cast e1⟩
  · rintro ⟨e0, e1⟩ a
    match a with
    | ⟨0, _⟩ => exact k0.trans e0
    | ⟨1, _⟩ =>
      refine k1.trans ?_
      show ((j 1).val : Int) = (c.val : Int)
      exact_mod_cast e1

end Literal

/-! ## Any dimension numbers with those four lists -/

section Rows
variable {N C E : Nat}

/-- The dimension numbers `d` are those of a row scatter: update axis 1 the window axis, operand axis 0 inserted,
    the start index's one component sent to operand axis 0, and the index vector on axis 1 of the scatter
    indices. -/
structure Rows (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  iv : d.indexVectorDim = 1

/-- For a row scatter, update index `j` lands on `(n, c)` exactly when the scatter index of row `j 0`, read
    signed, is `n` and `j`'s column is `c`. -/
theorem rows_resultIdx?_iff (d : ScatterDims ⟨2, ![N, C]⟩ ⟨2, ![E, 1]⟩ ⟨2, ![E, C]⟩) (h : Rows d) {w : Nat}
    (idx : IVec ⟨2, ![E, 1]⟩ w) (j : (⟨2, ![E, C]⟩ : Shape).Idx) (n : Fin N) (c : Fin C) :
    d.resultIdx? j idx = some (ix2 n c) ↔
      (idx (ix2 ⟨(j 0).val, (j 0).isLt⟩ (0 : Fin 1))).toInt = (n.val : Int) ∧ (j 1).val = c.val := by
  obtain ⟨uw, iw, sd, iv, wf⟩ := d
  obtain ⟨h1, h2, h3, h4⟩ := h
  dsimp only at h1 h2 h3 h4
  subst h1 h2 h3 h4
  exact rowDims_resultIdx?_iff wf idx j n c

/-- THE ACCUMULATING ROW SCATTER READ AT `(n, c)`: the operand there plus the sum, over the rows `e` of the updates
    whose scatter index read signed is `n`, of the update at `(e, c)`. Rows whose index is negative or at least
    `N` contribute to no position. -/
theorem scatterAdd_rows_apply (d : ScatterDims ⟨2, ![N, C]⟩ ⟨2, ![E, 1]⟩ ⟨2, ![E, C]⟩) (h : Rows d) {w : Nat}
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  symm
  refine Finset.sum_bij (fun e _ => ix2 e c) ?_ ?_ ?_ ?_
  · intro e he
    rw [Finset.mem_filter] at he ⊢
    exact ⟨Finset.mem_univ _, (rows_resultIdx?_iff d h idx (ix2 e c) n c).2 ⟨he.2, rfl⟩⟩
  · intro e₁ _ e₂ _ heq
    exact congrFun heq (0 : Fin 2)
  · intro j hj
    rw [Finset.mem_filter] at hj
    obtain ⟨h0, h1⟩ := (rows_resultIdx?_iff d h idx j n c).1 hj.2
    refine ⟨⟨(j 0).val, (j 0).isLt⟩, Finset.mem_filter.2 ⟨Finset.mem_univ _, h0⟩, ?_⟩
    funext a
    match a with
    | ⟨0, _⟩ => rfl
    | ⟨1, _⟩ => exact Fin.ext h1.symm
  · intro e _
    rfl

/-- The same reading of the host's accumulating scatter operation at the ideal instance. -/
theorem host_scatterAdd_rows_apply (d : ScatterDims ⟨2, ![N, C]⟩ ⟨2, ![E, 1]⟩ ⟨2, ![E, C]⟩) (h : Rows d) {w : Nat}
    (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (φ := .f32) d x idx upd (ix2 n c)
      = x (ix2 n c) + ∑ e ∈ Finset.univ.filter (fun e : Fin E => (idx (ix2 e (0 : Fin 1))).toInt = (n.val : Int)),
          upd (ix2 e c) :=
  scatterAdd_rows_apply d h x idx upd n c

end Rows

end Cert.LibScatterRows
-- ==== Proof.LibSymNorm.lean ====
import Idealize.ShloMosaic.PureOps.Ideal

/-!
# Symmetric degree normalisation with self-loops: looped form = factored form

A graph layer on `N` nodes with `E` edges and `C` channels sends along every edge `e` the
message `hw (src e) * (dR (src e) * dR (dst e))`, where `dR = rs ∘ deg` and `rs` stands for the
reciprocal square root.

* Looped form: the edge list is extended by the `N` self-loops `i → i`; degrees are counted over
  the extended list and all `E + N` messages are summed into their destinations.
* Factored form: degrees are `(number of incoming edges) + 1`, the destination factor
  `rs (deg n)` is pulled out of the sum, and the self-loop message `hw n * rs (deg n)` is added in
  closed form.

The two forms agree as soon as `hw` is real valued: every degree is a positive real, hence
`rs (deg ·)` is real, and the identity is distributivity in `ℝ` (which is not available at the
infinite points of the extended reals, so finiteness is used).
-/

open scoped BigOperators

namespace Cert.LibSymNorm

variable {N E C : ℕ}

/-- The coercion `ℝ → EReal` commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of ones over a finite set is its cardinality, as a real number. -/
theorem sum_one_eq_coe_card {ι : Type*} (t : Finset ι) :
    (∑ _i ∈ t, (1 : EReal)) = (((t.card : ℕ) : ℝ) : EReal) := by
  rw [Finset.sum_const, nsmul_one, EReal.coe_natCast]

/-- degree of node n in the factored form: (0 + number of edges whose destination is n) + 1 -/
noncomputable def degF (dst : Fin E → ℤ) (n : Fin N) : EReal :=
  ((0 : EReal) + ∑ _e ∈ Finset.univ.filter (fun e : Fin E => dst e = (n.val : ℤ)), (1 : EReal)) + 1

/-- degree of node n in the looped form: 0 + number of extended edges whose destination is n -/
noncomputable def degL (dst' : Fin (E + N) → ℤ) (n : Fin N) : EReal :=
  (0 : EReal) + ∑ _e ∈ Finset.univ.filter (fun e : Fin (E + N) => dst' e = (n.val : ℤ)), (1 : EReal)

/-- Splitting a sum over the extended edges landing in `n`: the original edges landing in `n`,
plus the single self-loop of `n` (the loop `i → i` lands in `n` exactly when `i = n`). -/
theorem sum_filter_split (dst : Fin E → ℤ) (dst' : Fin (E + N) → ℤ)
    (hdstL : ∀ e : Fin E, dst' (Fin.castAdd N e) = dst e)
    (hdstR : ∀ i : Fin N, dst' (Fin.natAdd E i) = (i.val : ℤ))
    (f : Fin (E + N) → EReal) (n : Fin N) :
    ∑ e' ∈ Finset.univ.filter (fun e' : Fin (E + N) => dst' e' = (n.val : ℤ)), f e'
      = (∑ e ∈ Finset.univ.filter (fun e : Fin E => dst e = (n.val : ℤ)), f (Fin.castAdd N e))
        + f (Fin.natAdd E n) := by
  classical
  rw [Finset.sum_filter, Fin.sum_univ_add, Finset.sum_filter]
  congr 1
  · apply Finset.sum_congr rfl
    intro e _
    rw [hdstL]
  · have hloop : ∀ i : Fin N,
        (if dst' (Fin.natAdd E i) = (n.val : ℤ) then f (Fin.natAdd E i) else 0)
          = if i = n then f (Fin.natAdd E i) else 0 := by
      intro i
      rw [hdstR]
      by_cases hin : i = n
      · subst hin; simp
      · have : ¬ ((i.val : ℤ) = (n.val : ℤ)) := by
          intro hv
          exact hin (Fin.ext (by exact_mod_cast hv))
        rw [if_neg this, if_neg hin]
    rw [Finset.sum_congr rfl (fun i _ => hloop i), Finset.sum_ite_eq']
    simp

theorem degL_eq_degF (dst : Fin E → ℤ) (dst' : Fin (E + N) → ℤ)
    (hdstL : ∀ e : Fin E, dst' (Fin.castAdd N e) = dst e) (hdstR : ∀ i : Fin N, dst' (Fin.natAdd E i) = (i.val : ℤ))
    (n : Fin N) : degL dst' n = degF dst n := by
  unfold degL degF
  rw [sum_filter_split dst dst' hdstL hdstR (fun _ => (1 : EReal)) n, add_assoc]

theorem degF_pos (dst : Fin E → ℤ) (n : Fin N) : ∃ r : ℝ, 0 < r ∧ degF dst n = (r : EReal) := by
  refine ⟨(((Finset.univ.filter (fun e : Fin E => dst e = (n.val : ℤ))).card : ℕ) : ℝ) + 1, ?_, ?_⟩
  · positivity
  · unfold degF
    rw [sum_one_eq_coe_card, zero_add, EReal.coe_add, EReal.coe_one]

theorem sym_norm_factor
    (rs : EReal → EReal) (hrs : ∀ r : ℝ, 0 < r → ∃ q : ℝ, rs (r : EReal) = (q : EReal))
    (hw : Fin N → Fin C → EReal) (hhw : ∀ i c, ∃ r : ℝ, hw i c = (r : EReal))
    (dst : Fin E → ℤ) (s : Fin E → Fin N)
    (dst' : Fin (E + N) → ℤ) (s' d' : Fin (E + N) → Fin N)
    (hdstL : ∀ e : Fin E, dst' (Fin.castAdd N e) = dst e) (hdstR : ∀ i : Fin N, dst' (Fin.natAdd E i) = (i.val : ℤ))
    (hsL : ∀ e : Fin E, s' (Fin.castAdd N e) = s e) (hsR : ∀ i : Fin N, s' (Fin.natAdd E i) = i)
    (hd' : ∀ (e' : Fin (E + N)) (n : Fin N), dst' e' = (n.val : ℤ) → d' e' = n)
    (dR : Fin N → EReal) (hdR : ∀ n : Fin N, 0 < degL dst' n → dR n = rs (degL dst' n))
    (n : Fin N) (c : Fin C) :
    rs (degF dst n) * (((0 : EReal) + ∑ e ∈ Finset.univ.filter (fun e : Fin E => dst e = (n.val : ℤ)), hw (s e) c * rs (degF dst (s e)))
        + hw n c * rs (degF dst n))
    = (0 : EReal) + ∑ e' ∈ Finset.univ.filter (fun e' : Fin (E + N) => dst' e' = (n.val : ℤ)),
        hw (s' e') c * (dR (s' e') * dR (d' e')) := by
  classical
  -- real representatives of `hw` and of `rs (deg ·)`
  choose h hh using hhw
  have hq' : ∀ m : Fin N, ∃ q : ℝ, rs (degF dst m) = (q : EReal) := by
    intro m
    obtain ⟨r, hr, he⟩ := degF_pos dst m
    rw [he]
    exact hrs r hr
  choose q hq using hq'
  -- every looped degree is positive, so `dR m = rs (deg m)` is the real `q m`
  have hdRq : ∀ m : Fin N, dR m = (q m : EReal) := by
    intro m
    have hLF := degL_eq_degF dst dst' hdstL hdstR m
    obtain ⟨r, hr, he⟩ := degF_pos dst m
    have hposL : 0 < degL dst' m := by
      rw [hLF, he]
      exact_mod_cast hr
    rw [hdR m hposL, hLF, hq]
  -- right-hand side: under the filter the destination node is `n`; then everything is real
  have hR : ∑ e' ∈ Finset.univ.filter (fun e' : Fin (E + N) => dst' e' = (n.val : ℤ)),
        hw (s' e') c * (dR (s' e') * dR (d' e'))
      = ((∑ e ∈ Finset.univ.filter (fun e : Fin E => dst e = (n.val : ℤ)),
            h (s e) c * (q (s e) * q n) : ℝ) : EReal) + ((h n c * (q n * q n) : ℝ) : EReal) := by
    have hcongr : ∑ e' ∈ Finset.univ.filter (fun e' : Fin (E + N) => dst' e' = (n.val : ℤ)),
          hw (s' e') c * (dR (s' e') * dR (d' e'))
        = ∑ e' ∈ Finset.univ.filter (fun e' : Fin (E + N) => dst' e' = (n.val : ℤ)),
          ((h (s' e') c * (q (s' e') * q n) : ℝ) : EReal) := by
      apply Finset.sum_congr rfl
      intro e' he'
      rw [Finset.mem_filter] at he'
      rw [hd' e' n he'.2, hh, hdRq, hdRq, EReal.coe_mul, EReal.coe_mul]
    rw [hcongr,
      sum_filter_split dst dst' hdstL hdstR
        (fun e' => ((h (s' e') c * (q (s' e') * q n) : ℝ) : EReal)) n,
      coe_sum]
    simp only [hsL, hsR]
  -- left-hand side as a real
  have hL : ∑ e ∈ Finset.univ.filter (fun e : Fin E => dst e = (n.val : ℤ)),
        hw (s e) c * rs (degF dst (s e))
      = ((∑ e ∈ Finset.univ.filter (fun e : Fin E => dst e = (n.val : ℤ)),
            h (s e) c * q (s e) : ℝ) : EReal) := by
    rw [coe_sum]
    apply Finset.sum_congr rfl
    intro e _
    rw [hh, hq, EReal.coe_mul]
  rw [hR, hL, hq, hh, zero_add, zero_add, ← EReal.coe_mul, ← EReal.coe_add, ← EReal.coe_mul,
    ← EReal.coe_add, EReal.coe_eq_coe_iff, mul_add, Finset.mul_sum]
  congr 1
  · apply Finset.sum_congr rfl
    intro e _
    ring
  · ring

/-- The same identity with the extended edge list indexed by `Fin M` for any `M` equal to `E + N`: the first `E`
    indices (read through the equation) are the edges, the last `N` the self-loops. -/
theorem sym_norm_cast {M : ℕ} (hM : E + N = M)
    (rs : EReal → EReal) (hrs : ∀ r : ℝ, 0 < r → ∃ q : ℝ, rs (r : EReal) = (q : EReal))
    (hw : Fin N → Fin C → EReal) (hhw : ∀ i c, ∃ r : ℝ, hw i c = (r : EReal))
    (dst : Fin E → ℤ) (s : Fin E → Fin N)
    (dst' : Fin M → ℤ) (s' d' : Fin M → Fin N)
    (hdstL : ∀ e : Fin E, dst' (Fin.cast hM (Fin.castAdd N e)) = dst e)
    (hdstR : ∀ i : Fin N, dst' (Fin.cast hM (Fin.natAdd E i)) = (i.val : ℤ))
    (hsL : ∀ e : Fin E, s' (Fin.cast hM (Fin.castAdd N e)) = s e)
    (hsR : ∀ i : Fin N, s' (Fin.cast hM (Fin.natAdd E i)) = i)
    (hd' : ∀ (e' : Fin M) (n : Fin N), dst' e' = (n.val : ℤ) → d' e' = n)
    (dR : Fin N → EReal)
    (hdR : ∀ n : Fin N,
      0 < (0 : EReal) + ∑ _e ∈ Finset.univ.filter (fun e : Fin M => dst' e = (n.val : ℤ)), (1 : EReal) →
      dR n = rs ((0 : EReal) + ∑ _e ∈ Finset.univ.filter (fun e : Fin M => dst' e = (n.val : ℤ)), (1 : EReal)))
    (n : Fin N) (c : Fin C) :
    rs (degF dst n) * (((0 : EReal) + ∑ e ∈ Finset.univ.filter (fun e : Fin E => dst e = (n.val : ℤ)), hw (s e) c * rs (degF dst (s e)))
        + hw n c * rs (degF dst n))
    = (0 : EReal) + ∑ e' ∈ Finset.univ.filter (fun e' : Fin M => dst' e' = (n.val : ℤ)),
        hw (s' e') c * (dR (s' e') * dR (d' e')) := by
  subst hM
  exact sym_norm_factor rs hrs hw hhw dst s dst' s' d' hdstL hdstR hsL hsR hd' dR hdR n c

end Cert.LibSymNorm
-- ==== Proof.KLogits.lean ====
import proofs.«168597_j74852690035344_2_alg».proof.Proof.KHost
import proofs.«168597_j74852690035344_2_alg».proof.Proof.LibLayoutRead
import proofs.«168597_j74852690035344_2_alg».proof.Proof.LibEdgeOps
import proofs.«168597_j74852690035344_2_alg».proof.Proof.LibScatterRows
import proofs.«168597_j74852690035344_2_alg».proof.Proof.LibSymNorm
import Idealize.ShloMosaic.Lib.ValueIdx
import Idealize.ShloMosaic.PureOps.Ideal.Laws

/-!
# The kernel's logits at an index

The stretch between the regions, read at node `n` and cluster `c`. With `dstZ e` the destination word of edge `e` read as
an integer and `srcN e` the node its source word names (a negative word moved up by the row count, then brought into
range), the degree of `n` is (0 + the number of edges with `dstZ e = n`) + 1, its factor `q n` the reciprocal square
root of that, and the logit is

  `q n · ((0 + ∑ over edges e into n of hw (srcN e, c) · q (srcN e)) + hw (n, c) · q n)`.
-/

open scoped BigOperators

noncomputable section

namespace Cert.KernelIdeal.HostSide

open Cert.KernelIdeal Cert.KernelIdeal.Gen
open Idealize.ShloMosaic Idealize.ShloMosaic.ValueIdx
open Cert.LibLayoutRead Cert.LibSymNorm

/-- Edge `e`'s destination word read as an integer. -/
def dstZ (ei : IVec S2x3200000 32) (e : Fin 3200000) : ℤ := (dstW ei (ix1 e)).toInt

/-- The node edge `e`'s source word names: wrapped if negative, then brought into `[0, 100000)`. -/
def srcN (ei : IVec S2x3200000 32) (e : Fin 3200000) : Fin 100000 :=
  ⟨min (srcWrap ei (ix1 e)).toInt.toNat (100000 - 1), by omega⟩

theorem deg_apply (ei : IVec S2x3200000 32) (n : Fin 100000) :
    deg ei (ix1 n) = degF (N := 100000) (dstZ ei) n := by
  unfold deg degF dstZ
  rw [addf_apply, Cert.LibEdgeOps.host_scatterAdd_vec_apply scatter_S100000_S3200000x1_S3200000_n_0_0_1 ⟨rfl, rfl, rfl, rfl⟩]
  have hf : ∀ e : Fin 3200000, broadcastInDim S3200000x1 ![0] bcast_S3200000_S3200000x1_0 (dstW ei) (ix2 e (0 : Fin 1))
      = dstW ei (ix1 e) := fun e => column_apply _ _ e 0
  have h0 : broadcastInDim S100000 ![] bcast_S_S100000 (constant (F := Ideal) S_ .f32 0x00000000#32) (ix1 n) = 0 := by
    rw [splat_apply, constant_apply, Ideal.ofBits_zero_f32]
  have h1 : ∀ e : Fin 3200000,
      broadcastInDim S3200000 ![] bcast_S_S3200000 (constant (F := Ideal) S_ .f32 0x3F800000#32) (ix1 e) = 1 := fun e => by
    rw [splat_apply, constant_apply, one_word]
  have h1' : broadcastInDim S100000 ![] bcast_S_S100000 (constant (F := Ideal) S_ .f32 0x3F800000#32) (ix1 n) = 1 := by
    rw [splat_apply, constant_apply, one_word]
  simp only [hf, h0, h1, h1']

theorem dcol_apply (ei : IVec S2x3200000 32) (n : Fin 100000) (c : Fin 10) :
    dcol ei (ix2 n c) = dinv ei (ix1 n) := by
  unfold dcol
  rw [alongCols_apply, column_apply]

/-- The host's reciprocal square root at an index is the extended reals' of the entry. -/
theorem hostRsqrt_apply {s : Shape} {φ : FTy} (x : FVec Ideal s φ) (i : s.Idx) :
    Host.rsqrt (F := Ideal) x i = Ideal.rsqrt (x i) := rfl

theorem dinv_apply (ei : IVec S2x3200000 32) (n : Fin 100000) :
    dinv ei (ix1 n) = Ideal.rsqrt (degF (N := 100000) (dstZ ei) n) := by
  unfold dinv
  rw [hostRsqrt_apply, deg_apply]

theorem hs_apply (hw : FVec Ideal S100000x10 .f32) (ei : IVec S2x3200000 32) (i : Fin 100000) (c : Fin 10) :
    hs hw ei (ix2 i c) = hw (ix2 i c) * Ideal.rsqrt (degF (N := 100000) (dstZ ei) i) := by
  unfold hs
  rw [mulf_apply, dcol_apply, dinv_apply]

theorem gathered_apply (hw : FVec Ideal S100000x10 .f32) (ei : IVec S2x3200000 32) (e : Fin 3200000) (c : Fin 10) :
    gathered hw ei (ix2 e c) = hs hw ei (ix2 (srcN ei e) c) := by
  unfold gathered
  refine Cert.LibEdgeOps.gather_rows_apply_of_eq (by decide) gather_S100000x10_S3200000x1_S3200000x10_1_0_n_n_0_1_110
    ⟨rfl, rfl, rfl, rfl, rfl, rfl, rfl⟩ _ _ e c (srcN ei e) ?_
  rw [column_apply]
  rfl

theorem agg_apply (hw : FVec Ideal S100000x10 .f32) (ei : IVec S2x3200000 32) (n : Fin 100000) (c : Fin 10) :
    agg hw ei (ix2 n c) = (0 : EReal) + ∑ e ∈ Finset.univ.filter (fun e : Fin 3200000 => dstZ ei e = (n.val : ℤ)),
      hs hw ei (ix2 (srcN ei e) c) := by
  unfold agg dstZ
  rw [Cert.LibScatterRows.host_scatterAdd_rows_apply scatter_S100000x10_S3200000x1_S3200000x10_1_0_0_1 ⟨rfl, rfl, rfl, rfl⟩]
  have hf : ∀ e : Fin 3200000, broadcastInDim S3200000x1 ![0] bcast_S3200000_S3200000x1_0 (dstW ei) (ix2 e (0 : Fin 1))
      = dstW ei (ix1 e) := fun e => column_apply _ _ e 0
  have h0 : broadcastInDim S100000x10 ![] bcast_S_S100000x10 (constant (F := Ideal) S_ .f32 0x00000000#32) (ix2 n c) = 0 := by
    rw [splat_apply, constant_apply, Ideal.ofBits_zero_f32]
  simp only [hf, h0, gathered_apply]

/-- THE KERNEL'S LOGIT at `(n, c)`. -/
theorem logits_apply (hw : FVec Ideal S100000x10 .f32) (ei : IVec S2x3200000 32) (n : Fin 100000) (c : Fin 10) :
    logits hw ei (ix2 n c)
      = Ideal.rsqrt (degF (N := 100000) (dstZ ei) n)
        * (((0 : EReal) + ∑ e ∈ Finset.univ.filter (fun e : Fin 3200000 => dstZ ei e = (n.val : ℤ)),
              hw (ix2 (srcN ei e) c) * Ideal.rsqrt (degF (N := 100000) (dstZ ei) (srcN ei e)))
            + hw (ix2 n c) * Ideal.rsqrt (degF (N := 100000) (dstZ ei) n)) := by
  unfold logits
  rw [mulf_apply, addf_apply, dcol_apply, dinv_apply, agg_apply]
  simp only [hs_apply]

end Cert.KernelIdeal.HostSide

end
-- ==== Proof.RefLogits.lean ====
import proofs.«168597_j74852690035344_2_alg».proof.Proof.RefReadP
import proofs.«168597_j74852690035344_2_alg».proof.Proof.LibLayoutRead
import proofs.«168597_j74852690035344_2_alg».proof.Proof.LibEdgeOps
import proofs.«168597_j74852690035344_2_alg».proof.Proof.LibScatterRows
import Idealize.ShloMosaic.Lib.ValueIdx
import Idealize.ShloMosaic.PureOps.Ideal.Laws

/-!
# The reference's logits at an index

The reference extends the edge list by one self-loop per node (3200000 + 100000 = 3300000 edges), counts degrees over
the extended list, and sums per destination the source's transformed row times the product of the two endpoints'
factors. Read at node `n` and cluster `c`, with `dstZ' e` the extended edge's destination word read as an integer,
`srcN' e` / `dstN' e` the nodes its two words name for the gathers (wrapped if negative, then brought into range) and
`dR` the per-node factor the reference selects:

  `0 + ∑ over extended edges e into n of hw (srcN' e, c) · (dR (srcN' e) · dR (dstN' e))`,

and the degree the factor is selected from is `0 +` the number of extended edges into the node.
-/

open scoped BigOperators

noncomputable section

namespace Cert.RefLogits

open Cert.ReferenceIdeal Cert.ReferenceIdeal.Gen Cert.ReferenceIdeal.ReadP
open Idealize.ShloMosaic Idealize.ShloMosaic.ValueIdx
open Cert.LibLayoutRead

/-- Extended edge `e`'s destination word read as an integer. -/
def dstZ' (x1 : IVec S2x3200000 32) (e : Fin 3300000) : ℤ := (val_main_v11 (F := Ideal) x1 (ix1 e)).toInt
/-- The node the extended edge's source word names, for the gather of transformed rows. -/
def srcN' (x1 : IVec S2x3200000 32) (e : Fin 3300000) : Fin 100000 :=
  ⟨min (val_main_v39 (F := Ideal) x1 (ix1 e)).toInt.toNat (100000 - 1), by omega⟩
/-- The same node, for the gather of factors (the program wraps the source words a second time). -/
def srcF' (x1 : IVec S2x3200000 32) (e : Fin 3300000) : Fin 100000 :=
  ⟨min (val_main_v24 (F := Ideal) x1 (ix1 e)).toInt.toNat (100000 - 1), by omega⟩
/-- The node the extended edge's destination word names, for the gather of factors. -/
def dstN' (x1 : IVec S2x3200000 32) (e : Fin 3300000) : Fin 100000 :=
  ⟨min (val_main_v31 (F := Ideal) x1 (ix1 e)).toInt.toNat (100000 - 1), by omega⟩
/-- The per-node factor the reference selects. -/
def dR (x1 : IVec S2x3200000 32) (n : Fin 100000) : EReal := val_main_v19 (F := Ideal) x1 (ix1 n)

/-- The two wraps of the source words are one function. -/
theorem srcF'_eq (x1 : IVec S2x3200000 32) : srcF' x1 = srcN' x1 := rfl

theorem v26_apply (x1 : IVec S2x3200000 32) (e : Fin 3300000) :
    val_main_v26 (F := Ideal) x1 (ix1 e) = dR x1 (srcF' x1 e) := by
  unfold val_main_v26
  refine Cert.LibEdgeOps.gather_vec_apply_of_eq (by decide) gather_S100000_S3300000x1_S3300000_n_0_n_n_0_1_1
    ⟨rfl, rfl, rfl, rfl, rfl, rfl, rfl⟩ _ _ e (srcF' x1 e) ?_
  unfold val_main_v25
  rw [column_apply]
  rfl

theorem v33_apply (x1 : IVec S2x3200000 32) (e : Fin 3300000) :
    val_main_v33 (F := Ideal) x1 (ix1 e) = dR x1 (dstN' x1 e) := by
  unfold val_main_v33
  refine Cert.LibEdgeOps.gather_vec_apply_of_eq (by decide) gather_S100000_S3300000x1_S3300000_n_0_n_n_0_1_1
    ⟨rfl, rfl, rfl, rfl, rfl, rfl, rfl⟩ _ _ e (dstN' x1 e) ?_
  unfold val_main_v32
  rw [column_apply]
  rfl

theorem v41_apply (x0 : FVec Ideal S100000x256 .f32) (x1 : IVec S2x3200000 32) (x3 : FVec Ideal S256x10 .f32)
    (x5 : FVec Ideal S10x256 .f32) (e : Fin 3300000) (c : Fin 10) :
    val_main_v41 (F := Ideal) x0 x1 x3 x5 (ix2 e c) = val_main_v4 (F := Ideal) x0 x3 x5 (ix2 (srcN' x1 e) c) := by
  unfold val_main_v41
  refine Cert.LibEdgeOps.gather_rows_apply_of_eq (by decide) gather_S100000x10_S3300000x1_S3300000x10_1_0_n_n_0_1_110
    ⟨rfl, rfl, rfl, rfl, rfl, rfl, rfl⟩ _ _ e c (srcN' x1 e) ?_
  unfold val_main_v40
  rw [column_apply]
  rfl

theorem v44_apply (x0 : FVec Ideal S100000x256 .f32) (x1 : IVec S2x3200000 32) (x3 : FVec Ideal S256x10 .f32)
    (x5 : FVec Ideal S10x256 .f32) (e : Fin 3300000) (c : Fin 10) :
    val_main_v44 (F := Ideal) x0 x1 x3 x5 (ix2 e c)
      = val_main_v4 (F := Ideal) x0 x3 x5 (ix2 (srcN' x1 e) c) * (dR x1 (srcN' x1 e) * dR x1 (dstN' x1 e)) := by
  unfold val_main_v44
  rw [mulf_apply, v41_apply]
  unfold val_main_v43
  rw [alongCols_apply]
  unfold val_main_v42
  rw [column_apply]
  unfold val_main_v34
  rw [mulf_apply, v26_apply, v33_apply, srcF'_eq]

/-- THE REFERENCE'S LOGIT (before the bias) at `(n, c)`. -/
theorem v47_apply (x0 : FVec Ideal S100000x256 .f32) (x1 : IVec S2x3200000 32) (x3 : FVec Ideal S256x10 .f32)
    (x5 : FVec Ideal S10x256 .f32) (n : Fin 100000) (c : Fin 10) :
    val_main_v47 (F := Ideal) x0 x1 x3 x5 (ix2 n c)
      = (0 : EReal) + ∑ e ∈ Finset.univ.filter (fun e : Fin 3300000 => dstZ' x1 e = (n.val : ℤ)),
          val_main_v4 (F := Ideal) x0 x3 x5 (ix2 (srcN' x1 e) c) * (dR x1 (srcN' x1 e) * dR x1 (dstN' x1 e)) := by
  unfold val_main_v47 dstZ'
  rw [Cert.LibScatterRows.host_scatterAdd_rows_apply scatter_S100000x10_S3300000x1_S3300000x10_1_0_0_1 ⟨rfl, rfl, rfl, rfl⟩]
  have hf : ∀ e : Fin 3300000, val_main_v46 (F := Ideal) x1 (ix2 e (0 : Fin 1)) = val_main_v11 (F := Ideal) x1 (ix1 e) :=
    fun e => by unfold val_main_v46; rw [column_apply]
  have h0 : val_main_v45 (F := Ideal) (ix2 n c) = 0 := by
    unfold val_main_v45 val_main_cst_9; rw [splat_apply, constant_apply, Ideal.ofBits_zero_f32]
  simp only [hf, h0, v44_apply]

/-- The degree the reference's factor is selected from: 0 + the number of extended edges into the node. -/
theorem v15_apply (x1 : IVec S2x3200000 32) (n : Fin 100000) :
    val_main_v15 (F := Ideal) x1 (ix1 n)
      = (0 : EReal) + ∑ _e ∈ Finset.univ.filter (fun e : Fin 3300000 => dstZ' x1 e = (n.val : ℤ)), (1 : EReal) := by
  unfold val_main_v15 dstZ'
  rw [Cert.LibEdgeOps.host_scatterAdd_vec_apply scatter_S100000_S3300000x1_S3300000_n_0_0_1 ⟨rfl, rfl, rfl, rfl⟩]
  have hf : ∀ e : Fin 3300000, val_main_v14 (F := Ideal) x1 (ix2 e (0 : Fin 1)) = val_main_v11 (F := Ideal) x1 (ix1 e) :=
    fun e => by unfold val_main_v14; rw [column_apply]
  have h0 : val_main_v13 (F := Ideal) (ix1 n) = 0 := by
    unfold val_main_v13 val_main_cst_1; rw [splat_apply, constant_apply, Ideal.ofBits_zero_f32]
  have h1 : ∀ e : Fin 3300000, val_main_v12 (F := Ideal) (ix1 e) = 1 := fun e => by
    unfold val_main_v12 val_main_cst_0; rw [splat_apply, constant_apply, one_word]
  simp only [hf, h0, h1]

/-- Where the degree is positive the selected factor is its reciprocal square root. -/
theorem dR_of_pos (x1 : IVec S2x3200000 32) (n : Fin 100000)
    (h : 0 < val_main_v15 (F := Ideal) x1 (ix1 n)) :
    dR x1 n = Ideal.rsqrt (val_main_v15 (F := Ideal) x1 (ix1 n)) := by
  unfold dR val_main_v19
  rw [select_apply]
  have hc : val_main_v17 (F := Ideal) x1 (ix1 n) = 1#1 := by
    unfold val_main_v17
    rw [cmpf_apply]
    unfold val_main_v16 val_main_cst_2
    rw [splat_apply, constant_apply, Ideal.ofBits_zero_f32]
    show Ideal.cmp .ogt _ _ = 1#1
    unfold Ideal.cmp
    simp [h]
  rw [hc, select_one, val_main_v18_apply, Ideal.hostUnary_rsqrt_def]

end Cert.RefLogits

end
-- ==== Proof.EdgeWords.lean ====
import proofs.«168597_j74852690035344_2_alg».proof.Proof.KLogits
import proofs.«168597_j74852690035344_2_alg».proof.Proof.RefLogits
import Idealize.ShloMosaic.Lib.Pipeline.Value

/-!
# The extended edge list against the edge list

The reference's 3300000 extended edges are the 3200000 edges followed by one self-loop per node. For an extended edge
in the first part its two words are the edge's own words; for the self-loop of node `i` both words are the pattern of
`i`. A word whose signed reading is a node `n` is not negative, so the wrap leaves it alone and bringing it into range
gives `n`. Hence, on the first part, the reference's destination reading and source node are the kernel's; on the loop
of `i` both are `i`; and whenever an extended edge's destination reads as a node `n`, the node its destination word
names for the gather is `n`.
-/

noncomputable section

namespace Cert.EdgeWords

open Idealize.ShloMosaic Idealize.ShloMosaic.ValueIdx
open Cert.ReferenceIdeal.ReadP Cert.LibLayoutRead
open Cert.KernelIdeal.HostSide (srcW dstW srcWrap dstZ srcN)
open Cert.RefLogits (dstZ' srcN' dstN')

/-- The reference's destination words of the edges are the kernel's. -/
theorem v10_eq (x1 : IVec Cert.ReferenceIdeal.S2x3200000 32) : val_main_v10 (F := Ideal) x1 = dstW x1 := rfl
/-- The reference's source words of the edges are the kernel's. -/
theorem v7_eq (x1 : IVec Cert.ReferenceIdeal.S2x3200000 32) : val_main_v7 (F := Ideal) x1 = srcW x1 := rfl

/-! ## The two parts of the extended lists -/

theorem v11_of_lt (x1 : IVec Cert.ReferenceIdeal.S2x3200000 32) (e' : Fin 3300000) (e : Fin 3200000) (h : e'.val = e.val) :
    val_main_v11 (F := Ideal) x1 (ix1 e') = dstW x1 (ix1 e) := by
  unfold val_main_v11
  refine (concatenate_pair_apply_left (t := Cert.ReferenceIdeal.S3300000) (s₁ := Cert.ReferenceIdeal.S3200000) (s₂ := Cert.ReferenceIdeal.S100000) (0 : Fin 1) _ _ _ (ix1 e') rfl (ix1 e) (fun b => ?_)).trans (congrFun (v10_eq x1) _)
  match b with
  | ⟨0, _⟩ => exact h.symm

theorem v11_of_ge (x1 : IVec Cert.ReferenceIdeal.S2x3200000 32) (e' : Fin 3300000) (i : Fin 100000)
    (h : e'.val = 3200000 + i.val) : val_main_v11 (F := Ideal) x1 (ix1 e') = BitVec.ofNat 32 i.val := by
  unfold val_main_v11
  refine (concatenate_pair_apply_right (t := Cert.ReferenceIdeal.S3300000) (s₁ := Cert.ReferenceIdeal.S3200000) (s₂ := Cert.ReferenceIdeal.S100000) (0 : Fin 1) _ _ _ (ix1 e') rfl rfl (ix1 i) (fun b hb => ?_) ?_).trans rfl
  · match b with
    | ⟨0, _⟩ => exact absurd rfl hb
  · show i.val + 3200000 = e'.val
    omega

theorem v8_of_lt (x1 : IVec Cert.ReferenceIdeal.S2x3200000 32) (e' : Fin 3300000) (e : Fin 3200000) (h : e'.val = e.val) :
    val_main_v8 (F := Ideal) x1 (ix1 e') = srcW x1 (ix1 e) := by
  unfold val_main_v8
  refine (concatenate_pair_apply_left (t := Cert.ReferenceIdeal.S3300000) (s₁ := Cert.ReferenceIdeal.S3200000) (s₂ := Cert.ReferenceIdeal.S100000) (0 : Fin 1) _ _ _ (ix1 e') rfl (ix1 e) (fun b => ?_)).trans (congrFun (v7_eq x1) _)
  match b with
  | ⟨0, _⟩ => exact h.symm

theorem v8_of_ge (x1 : IVec Cert.ReferenceIdeal.S2x3200000 32) (e' : Fin 3300000) (i : Fin 100000)
    (h : e'.val = 3200000 + i.val) : val_main_v8 (F := Ideal) x1 (ix1 e') = BitVec.ofNat 32 i.val := by
  unfold val_main_v8
  refine (concatenate_pair_apply_right (t := Cert.ReferenceIdeal.S3300000) (s₁ := Cert.ReferenceIdeal.S3200000) (s₂ := Cert.ReferenceIdeal.S100000) (0 : Fin 1) _ _ _ (ix1 e') rfl rfl (ix1 i) (fun b hb => ?_) ?_).trans rfl
  · match b with
    | ⟨0, _⟩ => exact absurd rfl hb
  · show i.val + 3200000 = e'.val
    omega

/-! ## The wraps, spelt out -/

theorem v39_eq (x1 : IVec Cert.ReferenceIdeal.S2x3200000 32) (j : Cert.ReferenceIdeal.S3300000.Idx) :
    val_main_v39 (F := Ideal) x1 j
      = Scalar.select (IntOp.cmpi .slt (val_main_v8 (F := Ideal) x1 j) 0#32)
          (IntOp.addi (val_main_v8 (F := Ideal) x1 j) 100000#32) (val_main_v8 (F := Ideal) x1 j) := by
  rw [val_main_v39_apply, val_main_v36_apply, val_main_v38_apply, val_main_v35_apply, val_main_v37_apply,
    val_main_c_7_apply, val_main_c_8_apply]

theorem v31_eq (x1 : IVec Cert.ReferenceIdeal.S2x3200000 32) (j : Cert.ReferenceIdeal.S3300000.Idx) :
    val_main_v31 (F := Ideal) x1 j
      = Scalar.select (IntOp.cmpi .slt (val_main_v11 (F := Ideal) x1 j) 0#32)
          (IntOp.addi (val_main_v11 (F := Ideal) x1 j) 100000#32) (val_main_v11 (F := Ideal) x1 j) := by
  rw [val_main_v31_apply, val_main_v28_apply, val_main_v30_apply, val_main_v27_apply, val_main_v29_apply,
    val_main_c_5_apply, val_main_c_6_apply]

theorem srcWrap_eq (ei : IVec Cert.KernelIdeal.S2x3200000 32) (j : Cert.KernelIdeal.S3200000.Idx) :
    srcWrap ei j
      = Scalar.select (IntOp.cmpi .slt (srcW ei j) 0#32) (IntOp.addi (srcW ei j) 100000#32) (srcW ei j) := by
  have h0 : broadcastInDim Cert.KernelIdeal.S3200000 ![] Cert.KernelIdeal.Gen.bcast_S_S3200000
      (constantI Cert.KernelIdeal.S_ 32 0#32) j = 0#32 := by rw [splat_apply]; rfl
  have hK : broadcastInDim Cert.KernelIdeal.S3200000 ![] Cert.KernelIdeal.Gen.bcast_S_S3200000
      (constantI Cert.KernelIdeal.S_ 32 100000#32) j = 100000#32 := by rw [splat_apply]; rfl
  unfold srcWrap
  rw [select_apply]
  show Scalar.select (IntOp.cmpi .slt (srcW ei j) (broadcastInDim Cert.KernelIdeal.S3200000 ![]
        Cert.KernelIdeal.Gen.bcast_S_S3200000 (constantI Cert.KernelIdeal.S_ 32 0#32) j))
      (IntOp.addi (srcW ei j) (broadcastInDim Cert.KernelIdeal.S3200000 ![]
        Cert.KernelIdeal.Gen.bcast_S_S3200000 (constantI Cert.KernelIdeal.S_ 32 100000#32) j)) (srcW ei j) = _
  rw [h0, hK]

/-! ## The reference's readings against the kernel's -/

theorem dstZ'_of_lt (x1 : IVec Cert.ReferenceIdeal.S2x3200000 32) (e' : Fin 3300000) (e : Fin 3200000) (h : e'.val = e.val) :
    dstZ' x1 e' = dstZ x1 e := by
  unfold Cert.RefLogits.dstZ' Cert.KernelIdeal.HostSide.dstZ
  rw [v11_of_lt x1 e' e h]

theorem dstZ'_of_ge (x1 : IVec Cert.ReferenceIdeal.S2x3200000 32) (e' : Fin 3300000) (i : Fin 100000)
    (h : e'.val = 3200000 + i.val) : dstZ' x1 e' = (i.val : ℤ) := by
  unfold Cert.RefLogits.dstZ'
  rw [v11_of_ge x1 e' i h]
  exact Cert.LibEdgeOps.toInt_ofNat_small i.val (by have := i.isLt; omega)

theorem srcN'_of_lt (x1 : IVec Cert.ReferenceIdeal.S2x3200000 32) (e' : Fin 3300000) (e : Fin 3200000) (h : e'.val = e.val) :
    srcN' x1 e' = srcN x1 e := by
  apply Fin.ext
  show min (val_main_v39 (F := Ideal) x1 (ix1 e')).toInt.toNat (100000 - 1) = min (srcWrap x1 (ix1 e)).toInt.toNat (100000 - 1)
  rw [v39_eq, srcWrap_eq, v8_of_lt x1 e' e h]

theorem srcN'_of_ge (x1 : IVec Cert.ReferenceIdeal.S2x3200000 32) (e' : Fin 3300000) (i : Fin 100000)
    (h : e'.val = 3200000 + i.val) : srcN' x1 e' = i := by
  apply Fin.ext
  show min (val_main_v39 (F := Ideal) x1 (ix1 e')).toInt.toNat (100000 - 1) = i.val
  rw [v39_eq, v8_of_ge x1 e' i h]
  exact Cert.LibEdgeOps.clamp_wrap_of_toInt_eq 100000#32 _ i
    (Cert.LibEdgeOps.toInt_ofNat_small i.val (by have := i.isLt; omega))

theorem dstN'_of (x1 : IVec Cert.ReferenceIdeal.S2x3200000 32) (e' : Fin 3300000) (n : Fin 100000)
    (h : dstZ' x1 e' = (n.val : ℤ)) : dstN' x1 e' = n := by
  apply Fin.ext
  show min (val_main_v31 (F := Ideal) x1 (ix1 e')).toInt.toNat (100000 - 1) = n.val
  rw [v31_eq]
  exact Cert.LibEdgeOps.clamp_wrap_of_toInt_eq 100000#32 _ n h

end Cert.EdgeWords

end
-- ==== Proof.RefStages.lean ====
import proofs.«168597_j74852690035344_2_alg».proof.Proof.RefReadP
import proofs.«168597_j74852690035344_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# Two stages of the reference program, brought to the specification

Over the extended reals, the reference program's first stage and last stage read at an index:

* the linear stage: the column sums of the cluster embedding (a sum over its 10 rows, from 0) are added to every row of
  the input, and the shifted rows are multiplied by the 256 × 10 weight matrix: the entry at `(i, c)` is
  `∑ k, (x i k + cs k) * W k c`, which is `Cert.Spec.lin`;
* the pooling stage: the bias is added to the logits; a row's largest entry is the maximum folded over the row's 10
  entries from −∞, compared once more with −∞; the exponentials of the entries less that maximum are divided by their
  sum over the row (from 0); the quotient is multiplied by the 10 × 256 cluster embedding and added to the input:
  the entry at `(i, j)` is `Cert.Spec.pool`.

The logits themselves stay an opaque function of the inputs.
-/

open scoped BigOperators

noncomputable section

namespace Cert.RefStages

open Idealize.ShloMosaic Idealize.ShloMosaic.ValueIdx Cert.ReferenceIdeal Cert.ReferenceIdeal.ReadP

/-- The linear stage of the reference at `(i, c)`: the rows of the input shifted by the column sums of the cluster
    embedding, against column `c` of the weights. -/
theorem lin_stage (x0 : (⟨S100000x256, .f32⟩ : BufTy).Contents (Elt Ideal))
    (x3 : (⟨S256x10, .f32⟩ : BufTy).Contents (Elt Ideal)) (x5 : (⟨S10x256, .f32⟩ : BufTy).Contents (Elt Ideal))
    (i : Fin 100000) (c : Fin 10) :
    val_main_v4 (F := Ideal) x0 x3 x5 (ix2 i c)
      = Cert.Spec.lin (R := 100000) x0 (fun k => val_main_v0 (F := Ideal) x5 (ix1 k)) x3 i c := by
  have el : ∀ k : Fin 256, lidx_main_v4 (ix2 i c) k = ix2 i k := fun k =>
    funext fun a => Fin.ext (by match a with | ⟨0, _⟩ => rfl | ⟨1, _⟩ => rfl)
  have er : ∀ k : Fin 256, ridx_main_v4 (ix2 i c) k = ix2 k c := fun k =>
    funext fun a => Fin.ext (by match a with | ⟨0, _⟩ => rfl | ⟨1, _⟩ => rfl)
  have e2 : ∀ k : Fin 256, idx_main_v1 (idx_main_v2 (ix2 i k)) = ix1 k := fun k =>
    funext fun a => Fin.ext (by match a with | ⟨0, _⟩ => rfl)
  rw [val_main_v4_apply]
  unfold Cert.Spec.lin
  refine Finset.sum_congr rfl fun k _ => ?_
  rw [el k, er k, val_main_v3_apply, val_main_v2_apply, val_main_v1_apply, e2 k, Ideal.addf_def]

/-- Over the extended reals the floating-point maximum is `max`. -/
theorem maximumf_eq_max : (FloatOps.maximumf (F := Ideal) (φ := .f32)) = (max : EReal → EReal → EReal) := by
  funext a b; rfl

/-- A fold depends on its operation only through the operation's values. -/
theorem fold_congr_op {ι α : Type} (s : Finset ι) (f g : α → α → α) [Std.Commutative f] [Std.Associative f]
    [Std.Commutative g] [Std.Associative g] (h : f = g) (b : α) (l : ι → α) : s.fold f b l = s.fold g b l := by
  subst h; rfl

/-- A maximum-reduction of a 100000 × 10 array over its second axis, at row `i`: the fold of `max` over the row's 10
    entries from the initial value. -/
theorem reduce_max_row (y : S100000x10.Idx → EReal) (init : S_.Idx → EReal) (i : Fin 100000) :
    Host.reduce (FloatOps.maximumf (F := Ideal) (φ := .f32)) y init Gen.reducesTo_S100000x10_S100000_d1 Gen.h_S_ (ix1 i)
      = (Finset.univ : Finset (Fin 10)).fold max (init (Shape.Idx.first Gen.h_S_)) (fun k => y (ix2 i k)) := by
  have hr : S100000x10.Reduces [1] S100000 := by decide
  have hl : (y ∘ hr.lift (ix1 i)) = fun k : Fin 10 => y (ix2 i k) := funext fun k =>
    congrArg y (funext fun a => Fin.ext (by match a with | ⟨0, _⟩ => rfl | ⟨1, _⟩ => rfl))
  rw [Host.reduce_eq_fold_single _ _ _ Gen.reducesTo_S100000x10_S100000_d1 hr Gen.h_S_ (ix1 i), hl]
  exact fold_congr_op _ _ _ maximumf_eq_max _ _

/-- The biased logits at `(i, k)`: the logit there plus entry `k` of the bias. -/
theorem biased_entry (x0 : (⟨S100000x256, .f32⟩ : BufTy).Contents (Elt Ideal))
    (x1 : (⟨S2x3200000, .i32⟩ : BufTy).Contents (Elt Ideal))
    (x3 : (⟨S256x10, .f32⟩ : BufTy).Contents (Elt Ideal)) (x4 : (⟨S10, .f32⟩ : BufTy).Contents (Elt Ideal))
    (x5 : (⟨S10x256, .f32⟩ : BufTy).Contents (Elt Ideal)) (i : Fin 100000) (k : Fin 10) :
    val_main_v50 (F := Ideal) x0 x1 x3 x4 x5 (ix2 i k)
      = val_main_v47 (F := Ideal) x0 x1 x3 x5 (ix2 i k) + x4 (ix1 k) := by
  have e : idx_main_v48 (idx_main_v49 (ix2 i k)) = ix1 k :=
    funext fun a => Fin.ext (by match a with | ⟨0, _⟩ => rfl)
  rw [val_main_v50_apply, val_main_v49_apply, val_main_v48_apply, e, Ideal.addf_def]

/-- The reference's row maximum at row `i`: the maximum folded over the 10 entries of (logits + bias) in that row from
    −∞, compared once more with −∞. -/
theorem row_top (x0 : (⟨S100000x256, .f32⟩ : BufTy).Contents (Elt Ideal))
    (x1 : (⟨S2x3200000, .i32⟩ : BufTy).Contents (Elt Ideal))
    (x3 : (⟨S256x10, .f32⟩ : BufTy).Contents (Elt Ideal)) (x4 : (⟨S10, .f32⟩ : BufTy).Contents (Elt Ideal))
    (x5 : (⟨S10x256, .f32⟩ : BufTy).Contents (Elt Ideal)) (i : Fin 100000) :
    val_main_v53 (F := Ideal) x0 x1 x3 x4 x5 (ix1 i)
      = Cert.Spec.rowTop (fun k => val_main_v47 (F := Ideal) x0 x1 x3 x5 (ix2 i k) + x4 (ix1 k)) := by
  rw [val_main_v53_apply, val_main_v52_apply, val_main_cst_11_apply]
  unfold val_main_v51
  rw [reduce_max_row, val_main_cst_10_apply]
  simp only [biased_entry, Ideal.maximumf_def, Ideal.ofBits_def]
  unfold Cert.Spec.rowTop
  rfl

/-- The shifted exponential at `(i, k)`: the exponential of the biased logit there less the row's largest entry. -/
theorem exp_entry (x0 : (⟨S100000x256, .f32⟩ : BufTy).Contents (Elt Ideal))
    (x1 : (⟨S2x3200000, .i32⟩ : BufTy).Contents (Elt Ideal))
    (x3 : (⟨S256x10, .f32⟩ : BufTy).Contents (Elt Ideal)) (x4 : (⟨S10, .f32⟩ : BufTy).Contents (Elt Ideal))
    (x5 : (⟨S10x256, .f32⟩ : BufTy).Contents (Elt Ideal)) (i : Fin 100000) (k : Fin 10) :
    val_main_v57 (F := Ideal) x0 x1 x3 x4 x5 (ix2 i k)
      = Cert.Spec.rowExp (fun k' => val_main_v47 (F := Ideal) x0 x1 x3 x5 (ix2 i k') + x4 (ix1 k')) k := by
  have e : idx_main_v54 (idx_main_v55 (ix2 i k)) = ix1 i :=
    funext fun a => Fin.ext (by match a with | ⟨0, _⟩ => rfl)
  rw [val_main_v57_apply, val_main_v56_apply, val_main_v55_apply, val_main_v54_apply, e, row_top, biased_entry,
    Ideal.hostUnary_exp_def, Ideal.subf_def]
  rfl

/-- The row sum at row `i`: the sum of the row's 10 shifted exponentials. -/
theorem sum_entry (x0 : (⟨S100000x256, .f32⟩ : BufTy).Contents (Elt Ideal))
    (x1 : (⟨S2x3200000, .i32⟩ : BufTy).Contents (Elt Ideal))
    (x3 : (⟨S256x10, .f32⟩ : BufTy).Contents (Elt Ideal)) (x4 : (⟨S10, .f32⟩ : BufTy).Contents (Elt Ideal))
    (x5 : (⟨S10x256, .f32⟩ : BufTy).Contents (Elt Ideal)) (i : Fin 100000) :
    val_main_v58 (F := Ideal) x0 x1 x3 x4 x5 (ix1 i)
      = ∑ k : Fin 10, Cert.Spec.rowExp (fun k' => val_main_v47 (F := Ideal) x0 x1 x3 x5 (ix2 i k') + x4 (ix1 k')) k := by
  have e : ∀ k : Fin 10, idx_main_v58 (ix1 i) k = ix2 i k := fun k =>
    funext fun a => Fin.ext (by match a with | ⟨0, _⟩ => rfl | ⟨1, _⟩ => rfl)
  rw [val_main_v58_apply, val_main_cst_12_apply, Ideal.ofBits_def, Ideal.ofBits_zero_f32, zero_add]
  refine Finset.sum_congr rfl fun k _ => ?_
  rw [e k, exp_entry]

/-- The softmax at `(i, k)`: the shifted exponential there over the row's sum. -/
theorem soft_entry (x0 : (⟨S100000x256, .f32⟩ : BufTy).Contents (Elt Ideal))
    (x1 : (⟨S2x3200000, .i32⟩ : BufTy).Contents (Elt Ideal))
    (x3 : (⟨S256x10, .f32⟩ : BufTy).Contents (Elt Ideal)) (x4 : (⟨S10, .f32⟩ : BufTy).Contents (Elt Ideal))
    (x5 : (⟨S10x256, .f32⟩ : BufTy).Contents (Elt Ideal)) (i : Fin 100000) (k : Fin 10) :
    val_main_v61 (F := Ideal) x0 x1 x3 x4 x5 (ix2 i k)
      = Cert.Spec.soft (fun k' => val_main_v47 (F := Ideal) x0 x1 x3 x5 (ix2 i k') + x4 (ix1 k')) k := by
  have e : idx_main_v59 (idx_main_v60 (ix2 i k)) = ix1 i :=
    funext fun a => Fin.ext (by match a with | ⟨0, _⟩ => rfl)
  rw [val_main_v61_apply, val_main_v60_apply, val_main_v59_apply, e, sum_entry, exp_entry, Ideal.hostDivf_def]
  rfl

/-- The pooling stage of the reference at `(i, j)`: the input there plus the softmax of row `i` of (logits + bias)
    against column `j` of the cluster embedding. -/
theorem pool_stage (x0 : (⟨S100000x256, .f32⟩ : BufTy).Contents (Elt Ideal))
    (x1 : (⟨S2x3200000, .i32⟩ : BufTy).Contents (Elt Ideal))
    (x3 : (⟨S256x10, .f32⟩ : BufTy).Contents (Elt Ideal)) (x4 : (⟨S10, .f32⟩ : BufTy).Contents (Elt Ideal))
    (x5 : (⟨S10x256, .f32⟩ : BufTy).Contents (Elt Ideal)) (i : Fin 100000) (j : Fin 256) :
    val_main_v63 (F := Ideal) x0 x1 x3 x4 x5 (ix2 i j)
      = Cert.Spec.pool (R := 100000) (val_main_v47 (F := Ideal) x0 x1 x3 x5) (fun k => x4 (ix1 k)) x5 x0 i j := by
  have el : ∀ k : Fin 10, lidx_main_v62 (ix2 i j) k = ix2 i k := fun k =>
    funext fun a => Fin.ext (by match a with | ⟨0, _⟩ => rfl | ⟨1, _⟩ => rfl)
  have er : ∀ k : Fin 10, ridx_main_v62 (ix2 i j) k = ix2 k j := fun k =>
    funext fun a => Fin.ext (by match a with | ⟨0, _⟩ => rfl | ⟨1, _⟩ => rfl)
  rw [val_main_v63_apply, val_main_v62_apply, Ideal.addf_def]
  unfold Cert.Spec.pool
  refine congrArg (x0 (ix2 i j) + ·) (Finset.sum_congr rfl fun k _ => ?_)
  rw [el k, er k, soft_entry]

end Cert.RefStages

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.Payloads.lean ====
import proofs.«168597_j74852690035344_2_alg».proof.Proof.Gen.KernelIdeal.Skeleton
import proofs.«168597_j74852690035344_2_alg».proof.Proof.Spec
import proofs.«168597_j74852690035344_2_alg».proof.Proof.LibPlainDot
import proofs.«168597_j74852690035344_2_alg».proof.Proof.LibTileLayout
import Idealize.ShloMosaic.Lib.ValueIdx
import Idealize.ShloMosaic.Lib.ValueLayout
import Idealize.ShloMosaic.Lib.Pipeline.Value
import Idealize.ShloMosaic.PureOps.Ideal.Laws

/-!
# The two kernel bodies read at an index

Over the extended reals the roundings vanish, and each kernel body is a composition of entrywise operations, layout
moves, two reductions along a row and one rows-by-columns product. Read at an index written by its coordinates:

* the linear body at `(p, c)` is the sum over `k < 256` of (the input at `(p, k)` plus the shift at `k`) times the
  weight at `(k, c)`: the one shift row is repeated down the rows, added entrywise, and the product into a zero
  accumulator is the plain sum over the contracted coordinate;
* the pooling body at `(p, q)` is the input at `(p, q)` plus the sum over `k < 10` of the softmax of row `p` of
  (logits + bias) at `k` times the embedding at `(k, q)`: the row's maximum is the fold of `max` from −∞ over its 10
  entries, compared once more with −∞; stood up as a column and repeated along the row it is subtracted from every
  entry; the exponentials are summed along the row, the sum again repeated along the row, and each exponential is
  divided by it; the product with the embedding is again the plain sum.
-/

open scoped BigOperators

noncomputable section

namespace Cert.Payloads

open Idealize.ShloMosaic Idealize.ShloMosaic.ValueIdx Cert.KernelIdeal Cert.KernelIdeal.Gen

/-- The linear body at `(p, c)`: the product into a zero accumulator is the sum over the 256 contracted coordinates,
    and the left factor at `(p, k)` is the input plus the one shift row, repeated down the rows, at `k`. -/
theorem lin_payload (v0 : Vec Ideal S5000x256 .f32) (v1 : Vec Ideal S1x256 .f32) (v6 : Vec Ideal S256x10 .f32) (p : Fin 5000) (c : Fin 10) :
    k0_pay1 (F := Ideal) v0 v1 v6 (ix2 p c) = Cert.Spec.lin (R := 5000) v0 (fun k => v1 (ix2 (0 : Fin 1) k)) v6 p c := by
  unfold k0_pay1 Cert.Spec.lin
  refine (Cert.LibPlainDot.matmul_zero_apply _ ⟨rfl, rfl, rfl, rfl, rfl, rfl⟩ none _ _ p c).trans ?_
  refine Finset.sum_congr rfl fun k _ => ?_
  show (v0 (ix2 p k) + broadcastTo S5000x256 (shapeCast S1x256 v1 shapeCasts_S1x256_S1x256) broadcasts_S1x256_S5000x256 (ix2 p k))
      * v6 (ix2 k c) = _
  rw [broadcastTo_1b_ab_apply, shapeCast_self]

/-- The maximum along a row, started from −∞: the fold of `max` from −∞ over the row's 10 entries. -/
theorem rowMax_apply (x : FVec Ideal S5000x10 .f32) (p : Fin 5000) :
    multiReduction .maximumf [1] S5000 x 0xFF800000#32 reduces_S5000x10_S5000 (.inl rfl) rfl (ix1 p)
      = (Finset.univ : Finset (Fin 10)).fold max (Ideal.ofBits .f32 0xFF800000#32) (fun k => x (ix2 p k)) := by
  refine (Ideal.multiReduction_maximumf_single x _ reduces_S5000x10_S5000 (.inl rfl) rfl (ix1 p)).trans ?_
  have e : x ∘ reduces_S5000x10_S5000.lift (ix1 p) = fun k : Fin 10 => x (ix2 p k) := funext fun k => congrArg x (by
    funext c
    refine Fin.ext ?_
    match c with
    | ⟨0, _⟩ => rfl
    | ⟨1, _⟩ => rfl)
  rw [e]
  rfl

/-- The row's largest entry, stood up as a column and repeated along the row: at `(p, k)` it is the row's top. -/
theorem rowTop_apply (x : FVec Ideal S5000x10 .f32) (p : Fin 5000) (k : Fin 10) :
    broadcastTo S5000x10
        (shapeCast S5000x1
          (maximumf (broadcast S5000 (Scalar.ofBits (F := Ideal) .f32 0xFF800000#32))
            (multiReduction .maximumf [1] S5000 x 0xFF800000#32 reduces_S5000x10_S5000 (.inl rfl) rfl))
          shapeCasts_S5000_S5000x1)
        broadcasts_S5000x1_S5000x10 (ix2 p k)
      = Cert.Spec.rowTop (fun k' => x (ix2 p k')) := by
  rw [Cert.TileLayout.broadcastTo_a1_ab_apply, Cert.TileLayout.shapeCast_a_a1_apply]
  show max (Ideal.ofBits .f32 0xFF800000#32) (multiReduction .maximumf [1] S5000 x 0xFF800000#32 reduces_S5000x10_S5000 (.inl rfl) rfl (ix1 p)) = _
  rw [rowMax_apply]
  rfl

/-- The shifted exponentials: at `(p, k)` the exponential of the entry less the row's top. -/
theorem rowExp_apply (x : FVec Ideal S5000x10 .f32) (p : Fin 5000) (k : Fin 10) :
    exp (subf x (broadcastTo S5000x10
        (shapeCast S5000x1
          (maximumf (broadcast S5000 (Scalar.ofBits (F := Ideal) .f32 0xFF800000#32))
            (multiReduction .maximumf [1] S5000 x 0xFF800000#32 reduces_S5000x10_S5000 (.inl rfl) rfl))
          shapeCasts_S5000_S5000x1)
        broadcasts_S5000x1_S5000x10)) (ix2 p k)
      = Cert.Spec.rowExp (fun k' => x (ix2 p k')) k := by
  show Ideal.exp (x (ix2 p k) - _) = _
  rw [rowTop_apply]
  rfl

/-- Each exponential over the row's sum of exponentials, the sum stood up as a column and repeated along the row:
    at `(p, k)` the softmax of the row. -/
theorem soft_apply (e : FVec Ideal S5000x10 .f32) (l : Fin 10 → EReal) (p : Fin 5000)
    (he : ∀ k : Fin 10, e (ix2 p k) = Cert.Spec.rowExp l k) (k : Fin 10) :
    divf e (broadcastTo S5000x10
        (shapeCast S5000x1 (multiReduction .add [1] S5000 e 0x00000000#32 reduces_S5000x10_S5000 (.inl rfl) rfl)
          shapeCasts_S5000_S5000x1)
        broadcasts_S5000x1_S5000x10) (ix2 p k)
      = Cert.Spec.soft l k := by
  show Ideal.div (e (ix2 p k)) _ = Ideal.div (Cert.Spec.rowExp l k) (∑ k' : Fin 10, Cert.Spec.rowExp l k')
  rw [Cert.TileLayout.broadcastTo_a1_ab_apply, Cert.TileLayout.shapeCast_a_a1_apply, he k]
  refine congrArg (Ideal.div _) ?_
  refine (Cert.TileLayout.sum_axis1_apply e _ reduces_S5000x10_S5000 (.inl rfl) rfl p).trans ?_
  exact Finset.sum_congr rfl fun k' _ => he k'

/-- The pooling body at `(p, q)`: the input there plus the product's plain sum over the 10 contracted coordinates,
    whose left factor at `(p, k)` is the softmax of row `p` of (logits + bias) at `k`. -/
theorem pool_payload (v0 : Vec Ideal S5000x10 .f32) (v2 : Vec Ideal S1x10 .f32) (v18 : Vec Ideal S10x256 .f32) (v21 : Vec Ideal S5000x256 .f32) (p : Fin 5000) (q : Fin 256) :
    k1_pay1 (F := Ideal) v0 v2 v18 v21 (ix2 p q) = Cert.Spec.pool (R := 5000) v0 (fun k => v2 (ix2 (0 : Fin 1) k)) v18 v21 p q := by
  unfold k1_pay1 Cert.Spec.pool
  refine congrArg (v21 (ix2 p q) + ·) ?_
  refine (Cert.LibPlainDot.matmul_zero_apply _ ⟨rfl, rfl, rfl, rfl, rfl, rfl⟩ none _ _ p q).trans ?_
  refine Finset.sum_congr rfl fun k _ => ?_
  refine congrArg (· * v18 (ix2 k q)) ?_
  refine soft_apply _ _ p (fun k' => ?_) k
  refine (rowExp_apply _ p k').trans ?_
  refine congrArg (fun l => Cert.Spec.rowExp l k') (funext fun j => ?_)
  show shapeCast S5000x10 v0 shapeCasts_S5000x10_S5000x10 (ix2 p j)
      + broadcastTo S5000x10 (shapeCast S1x10 v2 shapeCasts_S1x10_S1x10) broadcasts_S1x10_S5000x10 (ix2 p j) = _
  rw [broadcastTo_1b_ab_apply, shapeCast_self, shapeCast_self]

end Cert.Payloads

end
-- ==== Proof.Finite.lean ====
import proofs.«168597_j74852690035344_2_alg».proof.Defs
import proofs.«168597_j74852690035344_2_alg».proof.Proof.Gen.Pre_finite_inputs
import proofs.«168597_j74852690035344_2_alg».proof.Proof.Gen.KernelIdeal
import proofs.«168597_j74852690035344_2_alg».proof.Proof.Spec
import Idealize.ShloMosaic.Lib.ReduceAll
import Idealize.ShloMosaic.Lib.ValueIdx
import Idealize.ShloMosaic.PureOps.Ideal.Laws

/-!
# Finite inputs are real numbers, and the linear stage keeps them real

The precondition says of each float argument array `a` that the conjunction over all its entries of
`|a i| < +∞` holds, and takes the conjunction of these over the four float arguments. Over the extended reals
`|x| = max x (-x)`, and `max x (-x) < ⊤` excludes both `x = ⊤` (then `max x (-x) = ⊤`) and `x = ⊥`
(then `-x = ⊤`); so every entry of every float argument is the image of a real number (`args_real`, `arg4_real`).

The reals are closed in the extended reals under sum and product (`real_add`, `real_mul`), hence under finite
sums (`real_sum`). So the linear stage `∑ k, (x (i, k) + cs k) * W (k, c)` of real entries is real (`lin_real`),
and so is a column sum of a 10 × 256 array of reals started from zero (`colsum_real`).
-/

open scoped BigOperators

noncomputable section

namespace Cert.Finite

open Idealize.ShloMosaic Idealize.SL.Sem

/-- The shape of rank zero has exactly one index: two indices are functions on the empty set of axes. -/
instance subsingleton_scalar_idx : Subsingleton Cert.Pre_finite_inputs.S_.Idx :=
  ⟨fun a b => funext fun d => d.elim0⟩

/-- An extended real whose absolute value `max x (-x)` is strictly below `+∞` (the value of the word
    `0x7F800000`) is a real number: `⊤` fails since `max ⊤ _ = ⊤`, and `⊥` fails since `-⊥ = ⊤`. -/
theorem lt_top_real {x : EReal}
    (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- The precondition read back: the conjunction of the four "all entries finite" bits is 1, so each of the four
    is 1; a conjunction over all entries that is 1 had a 1 at every entry; and the entry's bit is `|x| < +∞`. -/
theorem all_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ((∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal)))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have h0 := congrFun (h c) ValueIdx.ix0
  dsimp only [Cert.Pre_finite_inputs.fn, Cert.Pre_finite_inputs.fn_part1] at h0
  obtain ⟨h034, h5⟩ := IntOp.andi_eq_one.1 h0
  obtain ⟨h03, h4⟩ := IntOp.andi_eq_one.1 h034
  obtain ⟨ha0, ha3⟩ := IntOp.andi_eq_one.1 h03
  exact ⟨⟨fun i => lt_top_real (Host.reduce_andi_all _ _ _ _ _ ha0 i),
      fun i => lt_top_real (Host.reduce_andi_all _ _ _ _ _ ha3 i)⟩,
    fun i => lt_top_real (Host.reduce_andi_all _ _ _ _ _ h4 i),
    fun i => lt_top_real (Host.reduce_andi_all _ _ _ _ _ h5 i)⟩

/-- Under the precondition every entry of the input rows, of the weights and of the cluster embedding is real. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg5) i = (r : EReal)) :=
  ⟨(all_real m h c).1.1, (all_real m h c).1.2, (all_real m h c).2.2⟩

/-- Under the precondition every entry of the bias vector is real. -/
theorem arg4_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg4) i = (r : EReal) :=
  (all_real m h c).2.1

/-- The sum of two reals, taken in the extended reals, is the real sum. -/
theorem real_add {a b : EReal} (ha : ∃ r : ℝ, a = r) (hb : ∃ r : ℝ, b = r) : ∃ r : ℝ, a + b = (r : EReal) := by
  obtain ⟨r, rfl⟩ := ha
  obtain ⟨s, rfl⟩ := hb
  exact ⟨r + s, (EReal.coe_add r s).symm⟩

/-- The product of two reals, taken in the extended reals, is the real product. -/
theorem real_mul {a b : EReal} (ha : ∃ r : ℝ, a = r) (hb : ∃ r : ℝ, b = r) : ∃ r : ℝ, a * b = (r : EReal) := by
  obtain ⟨r, rfl⟩ := ha
  obtain ⟨s, rfl⟩ := hb
  exact ⟨r * s, (EReal.coe_mul r s).symm⟩

/-- A finite sum of reals is real: the empty sum is 0, and one more term is one more `real_add`. -/
theorem real_sum {ι : Type} (t : Finset ι) (f : ι → EReal) (hf : ∀ i ∈ t, ∃ r : ℝ, f i = r) :
    ∃ r : ℝ, ∑ i ∈ t, f i = (r : EReal) := by
  classical
  induction t using Finset.induction_on with
  | empty => exact ⟨0, by simp⟩
  | insert a s ha ih =>
    rw [Finset.sum_insert ha]
    exact real_add (hf a (Finset.mem_insert_self a s)) (ih fun i hi => hf i (Finset.mem_insert_of_mem hi))

/-- The linear stage of real rows, a real shift and real weights is real: each term `(x + cs) * W` is, and so
    is their sum over the 256 features. -/
theorem lin_real {R : Nat} (x : (⟨2, ![R, 256]⟩ : Shape).Idx → EReal) (cs : Fin 256 → EReal)
    (W : (⟨2, ![256, 10]⟩ : Shape).Idx → EReal)
    (hx : ∀ i, ∃ r : ℝ, x i = (r : EReal)) (hcs : ∀ k, ∃ r : ℝ, cs k = (r : EReal))
    (hW : ∀ i, ∃ r : ℝ, W i = (r : EReal))
    (i : Fin R) (c : Fin 10) : ∃ r : ℝ, Cert.Spec.lin x cs W i c = (r : EReal) := by
  unfold Cert.Spec.lin
  exact real_sum _ _ fun k _ => real_mul (real_add (hx _) (hcs k)) (hW _)

/-- The shift vector: column `k` of a real 10 × 256 array summed over its 10 rows, from the zero word, is real. -/
theorem colsum_real (ce : (⟨2, ![10, 256]⟩ : Shape).Idx → EReal) (hce : ∀ i, ∃ r : ℝ, ce i = (r : EReal))
    (k : Fin 256) :
    ∃ r : ℝ, Ideal.ofBits .f32 0x00000000#32 + ∑ k' : Fin 10, ce (ValueIdx.ix2 k' k) = (r : EReal) := by
  rw [Ideal.ofBits_zero_f32, zero_add]
  exact real_sum _ _ fun k' _ => hce _

end Cert.Finite

end
-- ==== Proof.Bridge.lean ====
import proofs.«168597_j74852690035344_2_alg».proof.Proof.KRun
import proofs.«168597_j74852690035344_2_alg».proof.Proof.Region0
import proofs.«168597_j74852690035344_2_alg».proof.Proof.Region1
import proofs.«168597_j74852690035344_2_alg».proof.Proof.KHost
import proofs.«168597_j74852690035344_2_alg».proof.Proof.KLogits
import proofs.«168597_j74852690035344_2_alg».proof.Proof.RefLogits
import proofs.«168597_j74852690035344_2_alg».proof.Proof.EdgeWords
import proofs.«168597_j74852690035344_2_alg».proof.Proof.RefStages
import proofs.«168597_j74852690035344_2_alg».proof.Proof.Payloads
import proofs.«168597_j74852690035344_2_alg».proof.Proof.Finite
import proofs.«168597_j74852690035344_2_alg».proof.Proof.LibSymNorm
import proofs.«168597_j74852690035344_2_alg».proof.Proof.LibLayoutRead

/-!
# The kernel's result is the reference's

Both programs end with the pooled output `Spec.pool` of a logits array, the bias, the cluster embedding and the input,
so they agree as soon as their logits agree index by index. Both logits are built from the same transformed rows
`hw = Spec.lin …` (the kernel's first region against the reference's product), and differ in how the edge sum is
normalised: the kernel counts a node's degree over the edges plus one, scales the rows by the reciprocal square root
`q` of the degree before the edge sum, adds the node's own scaled row and scales once more; the reference appends one
self-loop per node to the edge list, counts degrees over the extended list, and sums `hw · (q(source) · q(destination))`
over it. The two are equal when every `hw` entry is a real number — then the destination's factor moves out of the sum —
which the finiteness of the inputs gives.
-/

open scoped BigOperators
set_option maxRecDepth 16384

noncomputable section

namespace Cert.Bridge

open Cert.KernelIdeal Cert.KernelIdeal.Gen Cert.KernelIdeal.HostSide
open Idealize.ShloMosaic Idealize.ShloMosaic.TcCoe Idealize.ShloMosaic.ValueIdx Idealize.SL.Sem
open Cert.ReferenceIdeal.ReadP Cert.LibLayoutRead

/-- The reciprocal square root of a positive real is a real. -/
theorem rsqrt_real (r : ℝ) (h : 0 < r) : ∃ q : ℝ, Ideal.rsqrt (r : EReal) = (q : EReal) :=
  ⟨(Real.sqrt r)⁻¹, by rw [Ideal.rsqrt_coe, if_neg (not_lt.mpr h.le), if_neg h.ne']⟩

variable (m : (ℓ : Loc nD τ sig) → Buf (Elt Ideal) ℓ) (ρ : Dev nD → PrngReg)

/-- The reference's shift vector is real where the embedding is. -/
theorem shift_real (x5 : FVec Ideal Cert.ReferenceIdeal.S10x256 .f32) (h5 : ∀ i, ∃ r : ℝ, x5 i = (r : EReal)) (k : Fin 256) :
    ∃ r : ℝ, val_main_v0 (F := Ideal) x5 (ix1 k) = (r : EReal) := by
  rw [val_main_v0_apply]
  have e : ∀ k' : Fin 10, idx_main_v0 (ix1 k) k' = ix2 k' k := fun k' => funext fun a => by
    match a with
    | ⟨0, _⟩ => rfl
    | ⟨1, _⟩ => rfl
  simp only [e]
  exact Cert.Finite.colsum_real x5 h5 k

/-- The kernel's transformed rows are the reference's. -/
theorem hw_eq (c : Dev nD) (i : Fin 100000) (c' : Fin 10) :
    (W2 m ρ c (Proc.devRef .tc main_v2) : S100000x10.Idx → EReal) (ix2 i c')
      = val_main_v4 (F := Ideal) (m ((c : Thread nD τ).loc main_arg0)) (m ((c : Thread nD τ).loc main_arg3))
          (m ((c : Thread nD τ).loc main_arg5)) (ix2 i c') := by
  rw [W2_v2, Cert.KernelIdeal.Region0.final (V1 m ρ) Cert.Payloads.lin_payload c, Cert.RefStages.lin_stage]
  show Cert.Spec.lin (R := 100000) (V1 m ρ c main_arg0) (fun k => V1 m ρ c main_v1 (ix2 (0 : Fin 1) k)) (V1 m ρ c main_arg3) i c' = _
  have hrow : (fun k : Fin 256 => (V1 m ρ c main_v1 : S1x256.Idx → EReal) (ix2 (0 : Fin 1) k))
      = fun k => val_main_v0 (F := Ideal) (m ((c : Thread nD τ).loc main_arg5)) (ix1 k) := funext fun k => by
    rw [V1_v1]
    unfold shiftRow
    rw [row_apply]
    rfl
  rw [hrow, V1_arg0, V1_arg3]

/-- THE LOGITS AGREE, index by index, when the inputs are finite. -/
theorem logits_eq (hpre : Cert.Pre_KernelIdeal (hPre_finite_inputs := Cert.Pre_finite_inputs.Gen.facts) m) (c : Dev nD)
    (n : Fin 100000) (k : Fin 10) :
    (V3 m ρ c main_v30 : S100000x10.Idx → EReal) (ix2 n k)
      = val_main_v47 (F := Ideal) (m ((c : Thread nD τ).loc main_arg0)) (m ((c : Thread nD τ).loc main_arg1))
          (m ((c : Thread nD τ).loc main_arg3)) (m ((c : Thread nD τ).loc main_arg5)) (ix2 n k) := by
  obtain ⟨hx0, hx3, hx5⟩ := Cert.Finite.args_real m hpre c
  rw [V3_v30, W2_arg1, logits_apply, Cert.RefLogits.v47_apply]
  simp only [hw_eq m ρ c]
  have hhw : ∀ (i : Fin 100000) (c' : Fin 10), ∃ r : ℝ,
      val_main_v4 (F := Ideal) (m ((c : Thread nD τ).loc main_arg0)) (m ((c : Thread nD τ).loc main_arg3))
        (m ((c : Thread nD τ).loc main_arg5)) (ix2 i c') = (r : EReal) := fun i c' => by
    rw [Cert.RefStages.lin_stage]
    exact Cert.Finite.lin_real _ _ _ hx0 (shift_real _ hx5) hx3 i c'
  generalize m ((c : Thread nD τ).loc main_arg1) = x1
  have hM : 3200000 + 100000 = 3300000 := by norm_num
  have hdstL : ∀ e : Fin 3200000,
      Cert.RefLogits.dstZ' x1 (Fin.cast hM (Fin.castAdd 100000 e)) = dstZ x1 e :=
    fun e => Cert.EdgeWords.dstZ'_of_lt x1 (Fin.cast hM (Fin.castAdd 100000 e)) e rfl
  have hdstR : ∀ i : Fin 100000,
      Cert.RefLogits.dstZ' x1 (Fin.cast hM (Fin.natAdd 3200000 i)) = (i.val : ℤ) :=
    fun i => Cert.EdgeWords.dstZ'_of_ge x1 (Fin.cast hM (Fin.natAdd 3200000 i)) i rfl
  have hsL : ∀ e : Fin 3200000,
      Cert.RefLogits.srcN' x1 (Fin.cast hM (Fin.castAdd 100000 e)) = srcN x1 e :=
    fun e => Cert.EdgeWords.srcN'_of_lt x1 (Fin.cast hM (Fin.castAdd 100000 e)) e rfl
  have hsR : ∀ i : Fin 100000,
      Cert.RefLogits.srcN' x1 (Fin.cast hM (Fin.natAdd 3200000 i)) = i :=
    fun i => Cert.EdgeWords.srcN'_of_ge x1 (Fin.cast hM (Fin.natAdd 3200000 i)) i rfl
  have hd' : ∀ (e' : Fin 3300000) (n' : Fin 100000),
      Cert.RefLogits.dstZ' x1 e' = (n'.val : ℤ) → Cert.RefLogits.dstN' x1 e' = n' :=
    fun e' n' h => Cert.EdgeWords.dstN'_of x1 e' n' h
  have hdR : ∀ n' : Fin 100000,
      0 < (0 : EReal) + ∑ _e ∈ Finset.univ.filter (fun e : Fin 3300000 => Cert.RefLogits.dstZ' x1 e = (n'.val : ℤ)), (1 : EReal) →
      Cert.RefLogits.dR x1 n' = Ideal.rsqrt ((0 : EReal) + ∑ _e ∈ Finset.univ.filter
        (fun e : Fin 3300000 => Cert.RefLogits.dstZ' x1 e = (n'.val : ℤ)), (1 : EReal)) := fun n' h => by
    rw [← Cert.RefLogits.v15_apply x1 n'] at h ⊢
    exact Cert.RefLogits.dR_of_pos x1 n' h
  have key := Cert.LibSymNorm.sym_norm_cast (N := 100000) (E := 3200000) (C := 10) (M := 3300000) hM Ideal.rsqrt rsqrt_real
    (fun i c' => val_main_v4 (F := Ideal) (m ((c : Thread nD τ).loc main_arg0)) (m ((c : Thread nD τ).loc main_arg3))
      (m ((c : Thread nD τ).loc main_arg5)) (ix2 i c')) hhw
    (dstZ x1) (srcN x1) (Cert.RefLogits.dstZ' x1) (Cert.RefLogits.srcN' x1) (Cert.RefLogits.dstN' x1)
    hdstL hdstR hsL hsR hd' (Cert.RefLogits.dR x1) hdR n k
  exact key

/-- THE KERNEL'S RESULT ARRAY is the reference's term of the same arguments. -/
theorem kernel_result (hpre : Cert.Pre_KernelIdeal (hPre_finite_inputs := Cert.Pre_finite_inputs.Gen.facts) m) (c : Dev nD) :
    (W4 m ρ c (Proc.devRef .tc main_v32) : S100000x256.Idx → EReal)
      = val_main_v63 (F := Ideal) (m ((c : Thread nD τ).loc main_arg0)) (m ((c : Thread nD τ).loc main_arg1))
          (m ((c : Thread nD τ).loc main_arg3)) (m ((c : Thread nD τ).loc main_arg4)) (m ((c : Thread nD τ).loc main_arg5)) := by
  funext i
  obtain ⟨r, j, rfl⟩ : ∃ (r : Fin 100000) (j : Fin 256), i = ix2 r j := ⟨i 0, i 1, eq_ix2 i⟩
  rw [Cert.KernelIdeal.Whole.result_eq, Cert.KernelIdeal.Region1.final (V3 m ρ) Cert.Payloads.pool_payload c,
    Cert.RefStages.pool_stage]
  show Cert.Spec.pool (R := 100000) (V3 m ρ c main_v30) (fun k => V3 m ρ c main_v31 (ix2 (0 : Fin 1) k)) (V3 m ρ c main_arg5)
      (V3 m ρ c main_arg0) r j = _
  have hb : (fun k : Fin 10 => (V3 m ρ c main_v31 : S1x10.Idx → EReal) (ix2 (0 : Fin 1) k))
      = fun k => m ((c : Thread nD τ).loc main_arg4) (ix1 k) := funext fun k => by
    rw [V3_v31, castRow_apply, W2_arg4]
  rw [hb, V3_arg5, W2_arg5, V3_arg0, W2_arg0]
  exact Cert.Spec.pool_congr _ _ _ r j (fun k => logits_eq m ρ hpre c r k)

end Cert.Bridge

end
-- ==== Proof.lean ====
/- The five claims of this certificate.

   The kernel is a graph layer in two pipelined regions around a stretch of host operations: rows shifted by the
   cluster embedding's column sums and multiplied by the weights; the result passed through the edge list with a
   symmetric degree normalisation (the destination's factor taken out of the edge sum, the self-loop added in closed
   form); then a softmax of (logits + bias) against the cluster embedding, added to the input. The reference does the
   same on the host with one self-loop edge per node appended to the edge list.

   * The three frames: the two kernel programs' are the generated frame proofs; the reference's is its run with the
     result dropped.
   * `preserves`: the idealization rewrote nothing, so there is nothing to state.
   * `algebraic`: both runs end with the reference's own term of the arguments in the result buffer — the
     reference by its run, the kernel because its last region leaves the pooled output of logits that agree with the
     reference's index by index (Proof/Bridge.lean); that agreement moves a factor across a finite sum, which needs
     the entries to be real, and this is where the finiteness of the inputs is used. -/
import proofs.«168597_j74852690035344_2_alg».proof.Defs
import proofs.«168597_j74852690035344_2_alg».proof.Proof.Gen.Kernel
import proofs.«168597_j74852690035344_2_alg».proof.Proof.Gen.Kernel.Skeleton
import proofs.«168597_j74852690035344_2_alg».proof.Proof.Gen.Kernel.Launch
import proofs.«168597_j74852690035344_2_alg».proof.Proof.Gen.Kernel.Points
import proofs.«168597_j74852690035344_2_alg».proof.Proof.Gen.Kernel.Frame
import proofs.«168597_j74852690035344_2_alg».proof.Proof.Gen.KernelIdeal
import proofs.«168597_j74852690035344_2_alg».proof.Proof.Gen.KernelIdeal.Skeleton
import proofs.«168597_j74852690035344_2_alg».proof.Proof.Gen.KernelIdeal.Launch
import proofs.«168597_j74852690035344_2_alg».proof.Proof.Gen.KernelIdeal.Points
import proofs.«168597_j74852690035344_2_alg».proof.Proof.Gen.KernelIdeal.Frame
import proofs.«168597_j74852690035344_2_alg».proof.Proof.Gen.ReferenceIdeal
import proofs.«168597_j74852690035344_2_alg».proof.Proof.RefRunP
import proofs.«168597_j74852690035344_2_alg».proof.Proof.RefReadP
import proofs.«168597_j74852690035344_2_alg».proof.Proof.Gen.Pre_finite_inputs
import proofs.«168597_j74852690035344_2_alg».proof.Proof.KRun
import proofs.«168597_j74852690035344_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both runs end with the reference's term of the arguments in the result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.ReadP.val_main_v63 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_result m ρ hpre c), (h c).2⟩)
      (Cert.KernelIdeal.Whole.run (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v63_eq, (hagree c).1, (hagree c).2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
